-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S1024x256 : Shape := ⟨2, ![1024, 256]⟩
abbrev S1024x1 : Shape := ⟨2, ![1024, 1]⟩
abbrev S1x1024 : Shape := ⟨2, ![1, 1024]⟩
abbrev S1024 : Shape := ⟨1, ![1024]⟩
abbrev S256x1024 : Shape := ⟨2, ![256, 1024]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩
abbrev S_ : Shape := ⟨0, ![]⟩

abbrev nBuf : Space → Nat
  | .hbm => 8
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1x1, .f32⟩
  | .local _ .vmem, ⟨9, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v57 : BitVec 1 := Scalar.cmpi .eq arg0 c7_i32
  let arg1 : BitVec 32 := BitVec.ofNat 32 (i 1).val
  let c7_i32_23 : BitVec 32 := 7#32
  let v58 : BitVec 1 := Scalar.cmpi .eq arg1 c7_i32_23
  let v59 : BitVec 1 := Scalar.andi v57 v58
  let v60 : BitVec 32 := Scalar.extui v59
  let c0_i32_24 : BitVec 32 := 0#32
  let v61 : BitVec 1 := Scalar.cmpi .ne v60 c0_i32_24
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  shapeCasts_S1024_S1x1024 : S1024.ShapeCasts S1x1024
  bitsLt_bf16_f32 : FTy.bits .bf16 < FTy.bits .f32
  transposes_S1024x256_p1_0_S256x1024 : S1024x256.Transposes [1, 0] S256x1024
  broadcasts_S1024x1_S1024x1024 : S1024x1.Broadcasts S1024x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S256x8192 : Shape := ⟨2, ![256, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 47
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S256x8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x1, .f32⟩
  | .hbm, ⟨19, _⟩ => ⟨S1x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x1, .i32⟩
  | .hbm, ⟨35, _⟩ => ⟨S1x8192, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S_, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_call0_v0 : Ref sig .tc := ⟨.hbm, 40, rfl⟩
abbrev main_call0_v1 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  transposes_S8192x256_S256x8192_1_0 : S8192x256.Transposes [1, 0] S256x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.HandKernel.Body.lean ====
import proofs.«144776_j80547816669829_1_alg».proof.Proof.Gen.Kernel.Launch
import proofs.«144776_j80547816669829_1_alg».proof.Proof.Gen.Kernel.Skeleton
import proofs.«144776_j80547816669829_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel body at one grid point

One call of the body loads the two embedding blocks and the two label blocks, adds the block's masked distance sum
to the scalar accumulator kept in scratch memory (after zeroing it at the grid's first point), and at the grid's last
point copies the accumulator into the output block. Three cases of the two conditionals occur on the 8 × 8 grid. -/

/-- The first conditional of the body: the point is the grid's first, `(0, 0)`. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second conditional of the body: the point is the grid's last, `(7, 7)`. -/
abbrev isLast (i : grid0.Coords) : Prop := k0_cond2 i = 1#1

/-- The zero offsets of a rank-two rectangle. -/
theorem hz2 : (![0, 0] : Fin 2 → ℕ) = fun _ => 0 := by
  funext a; fin_cases a <;> rfl

/-- The accumulator after one point: what it held plus the masked distance sum of the point's blocks. -/
def accStep (x0 x1 : Vec F S1024x256 .f32) (x2 : Vec F S1024x1 .i32) (x3 : Vec F S1x1024 .i32) (s : Vec F S1x1 .f32) : Vec F S1x1 .f32 :=
  k0_pay1 (k0_pay3 x0 x1) x2 x3 s

set_option maxHeartbeats 1000000 in
/-- At the first point the accumulator is zeroed, then the block's sum is added; the output block is left alone. -/
theorem body_first (c : Dev nD) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1x1 .f32) (harg6 : arg6.IsWhole) (arg7 : Memref sig .tc .vmem S1x1 .f32) (harg7 : arg7.IsWhole)
    (hc0 : isFirst i) (hc1 : ¬ isLast i)
    (x0 x1 : Vec F S1024x256 .f32) (x2 : Vec F S1024x1 .i32) (x3 : Vec F S1x1024 .i32) (y s : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y ∗ owns (c : Thread nD τ) arg7 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (y)
            ∗ owns (c : Thread nD τ) arg7 fullShare (accStep x0 x1 x2 x3 (k0_pay2 (F := F)))) -∗ K ⟨⟩))
      ⊢ wp frame (wpE (defs₀ (F := F)) Variants.none c none) E (cc0__instance_loss_kernel i arg2 harg2 arg3 harg3 arg4 harg4 arg5 harg5 arg6 harg6 arg7 harg7) K := by
  simp only [cc0__instance_loss_kernel_eq_skeleton]; unfold cc0__instance_loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact H5
  ipureintro
  sl_unfold_words
  rw [View.read_writes_eq_canon _ _ _ (fun y => ⟨_, List.mem_cons_self, View.mem_set_unit_zero hz2 Facts₀.inb_S1x1_S1x1_0_0 y⟩), View.canon_cons_unit_zero hz2]
  simp only [accStep, View.readAt_eq_ld, harg2.read_unread, harg3.read_unread, harg4.read_unread, harg5.read_unread, harg7.read_unread,
    View.ld_unit_zero (S := S1024x256) hz2, View.ld_unit_zero (S := S1024x1) hz2, View.ld_unit_zero (S := S1x1024) hz2, View.ld_unit_zero (S := S1x1) hz2,
    View.readCov_unit_zero (S := S1x1) _ hz2]

set_option maxHeartbeats 1000000 in
/-- At a middle point the block's sum is added to the accumulator; the output block is left alone. -/
theorem body_mid (c : Dev nD) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1x1 .f32) (harg6 : arg6.IsWhole) (arg7 : Memref sig .tc .vmem S1x1 .f32) (harg7 : arg7.IsWhole)
    (hc0 : ¬ isFirst i) (hc1 : ¬ isLast i)
    (x0 x1 : Vec F S1024x256 .f32) (x2 : Vec F S1024x1 .i32) (x3 : Vec F S1x1024 .i32) (y s : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y ∗ owns (c : Thread nD τ) arg7 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (y)
            ∗ owns (c : Thread nD τ) arg7 fullShare (accStep x0 x1 x2 x3 s)) -∗ K ⟨⟩))
      ⊢ wp frame (wpE (defs₀ (F := F)) Variants.none c none) E (cc0__instance_loss_kernel i arg2 harg2 arg3 harg3 arg4 harg4 arg5 harg5 arg6 harg6 arg7 harg7) K := by
  simp only [cc0__instance_loss_kernel_eq_skeleton]; unfold cc0__instance_loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact H5
  ipureintro
  sl_unfold_words
  rw [View.read_writes_eq_canon _ _ _ (fun y => ⟨_, List.mem_cons_self, View.mem_set_unit_zero hz2 Facts₀.inb_S1x1_S1x1_0_0 y⟩), View.canon_cons_unit_zero hz2]
  simp only [accStep, View.readAt_eq_ld, harg2.read_unread, harg3.read_unread, harg4.read_unread, harg5.read_unread, harg7.read_unread,
    View.ld_unit_zero (S := S1024x256) hz2, View.ld_unit_zero (S := S1024x1) hz2, View.ld_unit_zero (S := S1x1024) hz2, View.ld_unit_zero (S := S1x1) hz2,
    View.readCov_unit_zero (S := S1x1) _ hz2]

set_option maxHeartbeats 1000000 in
/-- At the last point the block's sum is added to the accumulator, and the accumulator is copied into the output block. -/
theorem body_last (c : Dev nD) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1x1 .f32) (harg6 : arg6.IsWhole) (arg7 : Memref sig .tc .vmem S1x1 .f32) (harg7 : arg7.IsWhole)
    (hc0 : ¬ isFirst i) (hc1 : isLast i)
    (x0 x1 : Vec F S1024x256 .f32) (x2 : Vec F S1024x1 .i32) (x3 : Vec F S1x1024 .i32) (y s : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y ∗ owns (c : Thread nD τ) arg7 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (accStep x0 x1 x2 x3 s)
            ∗ owns (c : Thread nD τ) arg7 fullShare (accStep x0 x1 x2 x3 s)) -∗ K ⟨⟩))
      ⊢ wp frame (wpE (defs₀ (F := F)) Variants.none c none) E (cc0__instance_loss_kernel i arg2 harg2 arg3 harg3 arg4 harg4 arg5 harg5 arg6 harg6 arg7 harg7) K := by
  simp only [cc0__instance_loss_kernel_eq_skeleton]; unfold cc0__instance_loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    sl_unfold_words
    rw [View.read_writes_eq_canon _ _ _ (fun y => ⟨_, List.mem_cons_self, View.mem_set_unit_zero hz2 Facts₀.inb_S1x1_S1x1_0_0 y⟩), View.canon_cons_unit_zero hz2]
    simp only [accStep, View.readAt_eq_ld, harg2.read_unread, harg3.read_unread, harg4.read_unread, harg5.read_unread, harg7.read_unread,
      View.ld_unit_zero (S := S1024x256) hz2, View.ld_unit_zero (S := S1024x1) hz2, View.ld_unit_zero (S := S1x1024) hz2, View.ld_unit_zero (S := S1x1) hz2,
      View.readCov_unit_zero (S := S1x1) _ hz2]
  iexists _; isplitr; swap; · iexact H5
  ipureintro
  sl_unfold_words
  rw [View.read_writes_eq_canon _ _ _ (fun y => ⟨_, List.mem_cons_self, View.mem_set_unit_zero hz2 Facts₀.inb_S1x1_S1x1_0_0 y⟩), View.canon_cons_unit_zero hz2]
  simp only [accStep, View.readAt_eq_ld, harg2.read_unread, harg3.read_unread, harg4.read_unread, harg5.read_unread, harg7.read_unread,
    View.ld_unit_zero (S := S1024x256) hz2, View.ld_unit_zero (S := S1024x1) hz2, View.ld_unit_zero (S := S1x1024) hz2, View.ld_unit_zero (S := S1x1) hz2,
    View.readCov_unit_zero (S := S1x1) _ hz2]

end Cert.Kernel.Hand

end
-- ==== Proof.HandKernel.Data.lean ====
import proofs.«144776_j80547816669829_1_alg».proof.Proof.HandKernel.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pipeline's proof data

What the region finds in its arrays, each input window's block at a grid point, the accumulator after each point, and
the body obligation at every point of the 8 × 8 grid. -/

variable (m : (ℓ : Loc nD τ sig) → Buf (Elt F) ℓ) (ρ : Dev nD → PrngReg)

/-- Core `c`'s buffers at launch, as a valuation; -/
abbrev V0 (c : Dev nD) : Valuation τ sig (Elt F) := fun b => m (c, b)
/-- when the region is entered: the two reshapes of the labels have run; -/
abbrev V1 (c : Dev nD) : Valuation τ sig (Elt F) := StableHlo.after hostOps0 (V0 m c)
/-- and the same read at a TensorCore reference. -/
abbrev V (c : Dev nD) (b : Ref sig .tc) : Buf (Elt F) ((c : Thread nD τ).loc b) := V1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The accumulator after the body at position `n`: zero plus the masked distance sums of the blocks of the points up to `n`. -/
def accAt (c : Dev nD) : (n : ℕ) → n < cfg0.N → Vec F S1x1 .f32
  | 0, h => accStep (iblk m c 0 ⟨0, h⟩) (iblk m c 1 ⟨0, h⟩) (iblk m c 2 ⟨0, h⟩) (iblk m c 3 ⟨0, h⟩) (k0_pay2 (F := F))
  | n + 1, h => accStep (iblk m c 0 ⟨n + 1, h⟩) (iblk m c 1 ⟨n + 1, h⟩) (iblk m c 2 ⟨n + 1, h⟩) (iblk m c 3 ⟨n + 1, h⟩) (accAt c n (Nat.lt_of_succ_lt h))

theorem accAt_first (c : Dev nD) (t : Fin cfg0.N) (h0 : t.val = 0) :
    accAt m c t.val t.isLt = accStep (iblk m c 0 t) (iblk m c 1 t) (iblk m c 2 t) (iblk m c 3 t) (k0_pay2 (F := F)) := by
  obtain ⟨n, hn⟩ := t
  cases n with
  | zero => rfl
  | succ n => exact absurd h0 (Nat.succ_ne_zero n)

theorem accAt_pos (c : Dev nD) (t : Fin cfg0.N) (h0 : t.val ≠ 0) :
    accAt m c t.val t.isLt = accStep (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd rfl h0
  | succ n => rfl

/-! ## The conditionals over the grid, and where the output window is idle -/

theorem hfirst : ∀ t : Fin cfg0.N, isFirst (grid0.coords t) ↔ t.val = 0 :=
  (by decide +kernel : ∀ t : Fin grid0.N, isFirst (grid0.coords t) ↔ t.val = 0)
theorem hlast : ∀ t : Fin cfg0.N, isLast (grid0.coords t) ↔ t.val = 63 :=
  (by decide +kernel : ∀ t : Fin grid0.N, isLast (grid0.coords t) ↔ t.val = 63)
/-- Away from the last point the output window is idle and not written back; -/
theorem idle4 : ∀ t : Fin cfg0.N, ¬ isLast (grid0.coords t) → cfg0.idle 4 (grid0.coords t) = true := by decide +kernel
theorem noflush4 : ∀ t : Fin cfg0.N, ¬ isLast (grid0.coords t) → (cfg0.win 4).flush t = false := by decide +kernel
/-- at the last point it is live. -/
theorem live4 : ∀ t : Fin cfg0.N, isLast (grid0.coords t) → cfg0.idle 4 (grid0.coords t) = false := by decide +kernel

/-! ## The staging memrefs at a point -/

abbrev ms0 (t : Fin cfg0.N) : Memref sig .tc .vmem S1024x256 .f32 := win0_0.stage (cfg0.slots t 0)
abbrev ms1 (t : Fin cfg0.N) : Memref sig .tc .vmem S1024x256 .f32 := win0_1.stage (cfg0.slots t 1)
abbrev ms2 (t : Fin cfg0.N) : Memref sig .tc .vmem S1024x1 .i32 := win0_2.stage (cfg0.slots t 2)
abbrev ms3 (t : Fin cfg0.N) : Memref sig .tc .vmem S1x1024 .i32 := win0_3.stage (cfg0.slots t 3)
abbrev ms4 (t : Fin cfg0.N) : Memref sig .tc .vmem S1x1 .f32 := win0_4.stage (cfg0.slots t 4)
/-- The scratch accumulator. -/
abbrev scM : Memref sig .tc .vmem S1x1 .f32 := Memref.whole cc0_scratch0

/-! ## The invariant: the accumulator between points -/

/-- Before the first point the scratch holds anything; afterwards what the point before left. -/
def PhiS (c : Dev nD) : (n : ℕ) → n ≤ cfg0.N → sProp 𝕄
  | 0, _ => Pipeline.scopedRest spec0 c
  | n + 1, hn => owns (c : Thread nD τ) scM fullShare (accAt m c n hn)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The arrays as the region finds them; after the body each input's buffer at its block and the output's at the
    accumulator; the two windows on the embeddings hold one half of that array's share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accAt m c t.val t.isLt := by dsimp only [dats]

/-- Each input's current staging buffer holds its block at every point, fetched there or not: unfetched, the block
    index has not moved and the body left the block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-- An input window is live at every point: its buffer is left at the block. -/
theorem leaves0 (c : Dev nD) (t : Fin cfg0.N) : (dats m 0 c).leavesExact 0 t = owns (c : Thread nD τ) (ms0 t) fullShare (iblk m c 0 t) := by
  rw [← after0]
theorem leaves1 (c : Dev nD) (t : Fin cfg0.N) : (dats m 0 c).leavesExact 1 t = owns (c : Thread nD τ) (ms1 t) fullShare (iblk m c 1 t) := by
  rw [← after1]
theorem leaves2 (c : Dev nD) (t : Fin cfg0.N) : (dats m 0 c).leavesExact 2 t = owns (c : Thread nD τ) (ms2 t) fullShare (iblk m c 2 t) := by
  rw [← after2]
theorem leaves3 (c : Dev nD) (t : Fin cfg0.N) : (dats m 0 c).leavesExact 3 t = owns (c : Thread nD τ) (ms3 t) fullShare (iblk m c 3 t) := by
  rw [← after3]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4000000 in
/-- The body at any point: the inputs' buffers hold their blocks; the point is the first, a middle one or the last;
    the invariant hands the body the accumulator at what the point before left (anything, at the first point) and
    takes it back at this point's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 64 := lt_of_lt_of_eq t.isLt (show cfg0.N = 64 from N_0)
  by_cases h0 : t.val = 0
  · have hl : ¬ isLast (grid0.coords t) := fun h => by have := (hlast t).mp h; omega
    rw [Dat.leavesExact_idle (dats m 0 c) 4 t (idle4 t hl) (noflush4 t hl)]
    rw [PhiS_castSucc m c t, PhiS_zero m c _ _ h0, scopedRest0_eq, accAt_first m c t h0]
    iintro ⟨⟨%fs, HS⟩, Ho, ⟨%d0, H0⟩, ⟨%d1, H1⟩, ⟨%d2, H2⟩, ⟨%d3, H3⟩, ⟨%d4, H4⟩⟩
    iapply (body_first c (grid0.coords t) _ _ _ _ _ _ _ _ _ _ _ _ ((hfirst t).mpr h0) hl
      (iblk m c 0 t) (iblk m c 1 t) (iblk m c 2 t) (iblk m c 3 t) _ fs Set.univ _)
    isplitl [H0]; · iexact H0
    isplitl [H1]; · iexact H1
    isplitl [H2]; · iexact H2
    isplitl [H3]; · iexact H3
    isplitl [H4]; · iexact H4
    isplitl [HS]; · rw [owns_whole]; iexact HS
    iintro ⟨H0, H1, H2, H3, H4, HS⟩
    isplitl [HS]; · iexact HS
    isplitl [Ho]; · iexact Ho
    isplitl [H0]; · iexact H0
    isplitl [H1]; · iexact H1
    isplitl [H2]; · iexact H2
    isplitl [H3]; · iexact H3
    iexists _; iexact H4
  · have hf : ¬ isFirst (grid0.coords t) := fun h => h0 ((hfirst t).mp h)
    rw [PhiS_castSucc m c t, PhiS_pos m c _ _ h0, accAt_pos m c t h0]
    by_cases h1 : t.val = 63
    · have hl : isLast (grid0.coords t) := (hlast t).mpr h1
      rw [show (dats m 0 c).leavesExact 4 t = owns (c : Thread nD τ) (ms4 t) fullShare ((dats m 0 c).after 4 t) from by
        unfold Dat.leavesExact; rw [live4 t hl], after4, accAt_pos m c t h0]
      iintro ⟨HS, Ho, ⟨%d0, H0⟩, ⟨%d1, H1⟩, ⟨%d2, H2⟩, ⟨%d3, H3⟩, ⟨%d4, H4⟩⟩
      iapply (body_last c (grid0.coords t) _ _ _ _ _ _ _ _ _ _ _ _ hf hl
        (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexact H4
    · have hl : ¬ isLast (grid0.coords t) := fun h => h1 ((hlast t).mp h)
      rw [Dat.leavesExact_idle (dats m 0 c) 4 t (idle4 t hl) (noflush4 t hl)]
      iintro ⟨HS, Ho, ⟨%d0, H0⟩, ⟨%d1, H1⟩, ⟨%d2, H2⟩, ⟨%d3, H3⟩, ⟨%d4, H4⟩⟩
      iapply (body_mid c (grid0.coords t) _ _ _ _ _ _ _ _ _ _ _ _ hf hl
        (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the region's entry hands the body is the invariant before the first point. -/
theorem Phi_in (c : Dev nD) : Pipeline.scopedRest spec0 c ⊢ (dats m 0 c).Φ 0 := by
  rw [show (dats m 0 c).Φ 0 = PhiS m c 0 (Nat.zero_le _) from rfl, PhiS_zero m c 0 _ rfl]

/-- A scratch buffer held at named contents is held at some contents. -/
theorem scratch_forget (c : Dev nD) (x : Vec F S1x1 .f32) :
    owns (c : Thread nD τ) scM fullShare x
      ⊢ (iprop(∃ f : Buf (Elt F) ((c : Thread nD τ).loc cc0_scratch0), ((c : Thread nD τ).loc cc0_scratch0) ↦{fullShare} f) : sProp 𝕄) := by
  rw [owns_whole]
  iintro HS
  iexists _; iexact HS

/-- After the last point the invariant gives the scratch buffer back, its contents forgotten. -/
theorem Phi_out (c : Dev nD) : (dats m 0 c).Φ (Fin.last cfg0.N) ⊢ Pipeline.scopedRest spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest0_eq]
  exact scratch_forget c _

end Cert.Kernel.Hand

end
-- ==== Proof.HandKernel.Run.lean ====
import proofs.«144776_j80547816669829_1_alg».proof.Proof.HandKernel.Data
import Idealize.ShloMosaic.Lib.Pipeline.Regions
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # The run of @main

@main is two reshapes of the labels, the kernel region, and three host operations on the region's result (a reshape to
a scalar, a constant, their quotient). The two windows on the embeddings read ONE array: its buffer's full share is split
into halves at the region's entry, one half per window, and joined again at its exit. -/

variable (m : (ℓ : Loc nD τ sig) → Buf (Elt F) ℓ) (ρ : Dev nD → PrngReg)

/-- The pipeline library's algebra is the certificate's. -/
abbrev EP : Emb (UR sig nD τ) (MT nD τ sig Unit (Elt F) ℕ (UR sig nD τ) ℕ) := emb₁
/-- No core owes another anything: no level is assigned. -/
abbrev L : GSem nD τ sig → Finset Unit := fun _ => ∅
abbrev lv : GSem nD τ sig → Unit → ℕ := fun _ _ => 0
/-- No table is prefetched. -/
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

/-- What the region leaves in its result array. -/
def outF (c : Dev nD) : Buf (Elt F) ((c : Thread nD τ).loc main_v2) := (dats m 0 c).arrAt 4 cfg0.N

/-- Core `c`'s buffers after the region, which may change its result array only; -/
abbrev V2 (c : Dev nD) : Valuation τ sig (Elt F) := Function.update (V1 m c) main_v2 (outF m c)
/-- and after the three host operations that follow it. -/
abbrev V3 (c : Dev nD) : Valuation τ sig (Elt F) := StableHlo.after hostOps1 (V2 m c)
/-- `V2` read at a TensorCore reference. -/
abbrev Vb2 (c : Dev nD) (b : Ref sig .tc) : Buf (Elt F) ((c : Thread nD τ).loc b) := V2 m c (Proc.devRef .tc b)

/-! ## What the host stretches write -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
abbrev hostOps0_W : List (Ref sig .tc) := [main_v0, main_v1]
abbrev hostOps1_W : List (Ref sig .tc) := [main_v3, main_cst, main_v4]
theorem hostOps0_writes : (hostOps0 : List (HloOp τ sig (Elt F))).Forall fun op => op.writes ⊆ (hostOps0_W.map (Proc.devRef (τ := τ) .tc)).toFinset := by
  simp only [List.Forall]
  refine ⟨?_, ?_⟩ <;>
    (simp only [StableHlo.reshape_writes, Finset.singleton_subset_iff, List.mem_toFinset]; exact List.mem_map_of_mem (by decide))
theorem hostOps1_writes : (hostOps1 : List (HloOp τ sig (Elt F))).Forall fun op => op.writes ⊆ (hostOps1_W.map (Proc.devRef (τ := τ) .tc)).toFinset := by
  simp only [List.Forall]
  refine ⟨?_, ?_, ?_⟩ <;>
    (simp only [StableHlo.reshape_writes, StableHlo.nullary_writes, StableHlo.binary_writes, Finset.singleton_subset_iff, List.mem_toFinset]; exact List.mem_map_of_mem (by decide))

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ≠ main_v2) : V2 m c r = V1 m c r := by
  simp only [V2, Function.update_of_ne (StableHlo.devRef_ne_of_ne h : (Proc.devRef .tc r : DevRef τ sig) ≠ Proc.devRef .tc main_v2)]
theorem V2_out (c : Dev nD) : V2 m c main_v2 = outF m c := by
  simp only [V2, Function.update_self]
theorem V3_of (c : Dev nD) (r : Ref sig .tc) (h : r ∉ hostOps1_W) : V3 m c r = V2 m c r :=
  StableHlo.after_of_writes_sub hostOps1 _ hostOps1_writes h

/-- No item writes an argument. -/
theorem V3_arg0 (c : Dev nD) : V3 m c main_arg0 = m ((c : Thread nD τ).loc main_arg0) :=
  (V3_of m c main_arg0 (by decide)).trans <| (V2_of m c main_arg0 (by decide)).trans <| (V1_of m c main_arg0 (by decide)).trans rfl
theorem V3_arg1 (c : Dev nD) : V3 m c main_arg1 = m ((c : Thread nD τ).loc main_arg1) :=
  (V3_of m c main_arg1 (by decide)).trans <| (V2_of m c main_arg1 (by decide)).trans <| (V1_of m c main_arg1 (by decide)).trans rfl

/-! ## The windows' arrays, listed -/

/-- The distinct buffers behind the five windows' arrays are four. -/
theorem arrBufs_list (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg0, main_v0, main_v1, main_v2] (by decide) (by decide) _

/-- The five windows' arrays at their shares: the embeddings' buffer twice, at the two halves of its share. -/
theorem arrays_list (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W0, (arr_whole0 0).set_eq_univ, (arr_whole0 2).set_eq_univ, (arr_whole0 3).set_eq_univ, (arr_whole0 4).set_eq_univ]
  rfl

/-- ENTRY: the four buffers at the region-entry contents are the five arrays, the embeddings' share halved. -/
theorem arrays_of_bufs (c : Dev nD) :
    (Pipeline.arrBufs spec0 c (V m c) : sProp 𝕄) ⊢ (dats m 0 c).arrays ((dats m 0 c).arrAt · 0) := by
  rw [arrBufs_list, arrays_list]
  iintro ⟨Ha, Hv0, Hv1, Hv2⟩
  ihave Hs := (pointsTo_share (PosShare.mem_left_op_right fullShare)).1 $$ Ha
  icases Hs with ⟨Hl, Hr⟩
  isplitl [Hl]; · iexact Hl
  isplitl [Hr]; · iexact Hr
  isplitl [Hv0]; · iexact Hv0
  isplitl [Hv1]; · iexact Hv1
  iexact Hv2

theorem entry_split (c : Dev nD) :
    (unscopedBufs c (V m c) : sProp 𝕄)
      ⊢ iprop((dats m 0 c).arrays ((dats m 0 c).arrAt · 0) ∗ Pipeline.unscopedRest spec0 c (V m c)) := by
  rw [Pipeline.unscopedBufs_split₀ cfgs 0 winFacts₀0.arr_unscoped c (V m c)]
  exact sep_mono (arrays_of_bufs m c) .rfl

/-- EXIT: the five arrays after the run are the four buffers at the contents after the region, the halves joined. -/
theorem bufs_of_arrays (c : Dev nD) :
    ((dats m 0 c).arrays ((dats m 0 c).arrAt · cfg0.N) : sProp 𝕄) ⊢ Pipeline.arrBufs spec0 c (Vb2 m c) := by
  rw [arrBufs_list, arrays_list]
  rw [(dats m 0 c).arrAt_in 0 rfl, (dats m 0 c).arrAt_in 1 rfl, (dats m 0 c).arrAt_in 2 rfl, (dats m 0 c).arrAt_in 3 rfl]
  rw [show Vb2 m c main_arg0 = V m c main_arg0 from V2_of m c main_arg0 (by decide),
    show Vb2 m c main_v0 = V m c main_v0 from V2_of m c main_v0 (by decide),
    show Vb2 m c main_v1 = V m c main_v1 from V2_of m c main_v1 (by decide),
    show Vb2 m c main_v2 = outF m c from V2_out m c]
  iintro ⟨Hl, Hr, Hv0, Hv1, Hv2⟩
  isplitl [Hl Hr]
  · iapply (pointsTo_share (PosShare.mem_left_op_right fullShare)).2
    isplitl [Hl]; · iexact Hl
    iexact Hr
  isplitl [Hv0]; · iexact Hv0
  isplitl [Hv1]; · iexact Hv1
  iexact Hv2

/-- The buffers no window stages hold after the region what they held before it. -/
theorem rest_after (c : Dev nD) :
    (Pipeline.unscopedRest spec0 c (V m c) : sProp 𝕄) = Pipeline.unscopedRest spec0 c (Vb2 m c) := by
  rw [unscopedRest0_eq, unscopedRest0_eq]
  rw [show Vb2 m c main_arg1 = V m c main_arg1 from V2_of m c main_arg1 (by decide),
    show Vb2 m c main_v3 = V m c main_v3 from V2_of m c main_v3 (by decide),
    show Vb2 m c main_cst = V m c main_cst from V2_of m c main_cst (by decide),
    show Vb2 m c main_v4 = V m c main_v4 from V2_of m c main_v4 (by decide)]

theorem exit_join (c : Dev nD) :
    iprop((dats m 0 c).arrays ((dats m 0 c).arrAt · cfg0.N) ∗ Pipeline.unscopedRest spec0 c (V m c))
      ⊢ (unscopedBufs c (Vb2 m c) : sProp 𝕄) := by
  rw [Pipeline.unscopedBufs_split₀ cfgs 0 winFacts₀0.arr_unscoped c (Vb2 m c), rest_after]
  exact sep_mono (bufs_of_arrays m c) .rfl

/-! ## The segments -/

/-- The two reshapes before the region, over the unscoped buffers from the launch contents. -/
def seg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
/-- The three operations after the region, from the contents the region leaves. -/
def seg2 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) R

set_option backward.isDefEq.respectTransparency.types false in
/-- THE REGION: entered from the buffers after the two reshapes — the windows' arrays into the pipeline, the embeddings'
    share halved, everything else bypassing —, left with the result array at what the last point wrote back. -/
def reg0 : RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m c) ∗ R c)
  X c := iprop(emp)
  Y c := iprop(emp)
  Z c := Pipeline.unscopedRest spec0 c (V m c)
  hentry c := by
    rw [show StableHlo.held (c : Thread nD τ) (Pipeline.ucRefs τ sig) (V1 m c) = unscopedBufs c (V m c) from (Pipeline.unscopedBufs_held c _).symm]
    iintro ⟨⟨Hub, HO⟩, -, -⟩
    ihave H := (entry_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    iintro ⟨-, -, Hr⟩
    iapply (Phi_in m c); iexact Hr
  hout c := by
    rw [Pipeline.ownSems0_none]
    iintro H
    ihave Hr := (Phi_out m c) $$ H
    isplitr; · iempintro
    isplitr; · iempintro
    iexact Hr
  hexit c := by
    rw [show StableHlo.held (c : Thread nD τ) (Pipeline.ucRefs τ sig) (V2 m c) = unscopedBufs c (Vb2 m c) from (Pipeline.unscopedBufs_held c _).symm]
    iintro ⟨Ha, HO, -, HZ⟩
    imodintro
    isplitr [HO]
    · iapply (exit_join m c)
      isplitl [Ha]; · iexact Ha
      iexact HZ
    · unfold Pipeline.Dat.owesAt Pipeline.owesWithin
      icases HO with ⟨%W, -, HO⟩; iexists W; iexact HO

/-- @main as the list of the three. -/
abbrev segs : List (Seg (pcfgs (F := F)) adm (dats m) () defs₀ Variants.none L lv) := [.host (seg0 m), .region (reg0 m), .host (seg2 m)]

/-- The launch element: the pipeline library's at the staging cells. -/
def u₀ : UR sig nD τ := initOf (Pipeline.cells cfgs cellOf_inj) (Pipeline.launchToks cfgs cellOf_inj)

set_option backward.isDefEq.respectTransparency.types false in
/-- At the compiled mesh, for any float values, from any memory with zero counters: every weakly fair execution of @main
    terminates, and every final state has the result at what the three last operations make of the region's result, and
    both arguments as launched. -/
theorem run_main : θ_run defs (onTc (τ := τ) (main (F := F))) ⟨m, fun _ => 0, ρ⟩ (fun r => ∀ c : Dev nD,
      r.2.mem ((c.tc : Thread nD τ).loc main_v4) = V3 m c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj EP defs₀ Variants.none L lv m ρ main (segs m)
    (fun c Q => by rw [main_segs adm (dats m) () Variants.none L lv (seg0 m) (seg2 m) (reg0 m) rfl rfl c])
    (by simp only [Seg.pipes_host, Seg.pipes_region, Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V3 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => s.mem ((c.tc : Thread nD τ).loc main_v4) = V3 m c main_v4
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      unfold StableHlo.held
      iintro ⟨Hh, HSI⟩
      ihave Hr := (pointsTo_read_all (Pipeline.ucRefs τ sig) (fun b => ((c : Thread nD τ).1, b)) (V3 m c) s') $$ [Hh HSI]
      · isplitl [Hh] <;> iassumption
      icases Hr with ⟨%h, HSI⟩
      imodintro
      isplitr
      · ipureintro
        have hm : ∀ r : Ref sig .tc, r.isScoped = false → s'.mem.mem ((c.tc : Thread nD τ).loc r) = V3 m c r := fun r hr =>
          h (Proc.devRef .tc r) (Finset.mem_filter.mpr ⟨StableHlo.devRef_mem_tcRefs r, by simpa using hr⟩)
        exact ⟨hm main_v4 (by decide), (hm main_arg0 (by decide)).trans (V3_arg0 m c), (hm main_arg1 (by decide)).trans (V3_arg1 m c)⟩
      · iexact HSI)
    (hQ := fun _ h => h)

end Cert.Kernel.Hand

end
-- ==== Proof.HandKernelIdeal.Body.lean ====
import proofs.«144776_j80547816669829_1_alg».proof.Proof.Gen.KernelIdeal.Launch
import proofs.«144776_j80547816669829_1_alg».proof.Proof.Gen.KernelIdeal.Skeleton
import proofs.«144776_j80547816669829_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The kernel body at one grid point

One call of the body loads the two embedding blocks and the two label blocks, adds the block's masked distance sum
to the scalar accumulator kept in scratch memory (after zeroing it at the grid's first point), and at the grid's last
point copies the accumulator into the output block. Three cases of the two conditionals occur on the 8 × 8 grid. -/

/-- The first conditional of the body: the point is the grid's first, `(0, 0)`. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- The second conditional of the body: the point is the grid's last, `(7, 7)`. -/
abbrev isLast (i : grid0.Coords) : Prop := k0_cond2 i = 1#1

/-- The zero offsets of a rank-two rectangle. -/
theorem hz2 : (![0, 0] : Fin 2 → ℕ) = fun _ => 0 := by
  funext a; fin_cases a <;> rfl

/-- The accumulator after one point: what it held plus the masked distance sum of the point's blocks. -/
def accStep (x0 x1 : Vec F S1024x256 .f32) (x2 : Vec F S1024x1 .i32) (x3 : Vec F S1x1024 .i32) (s : Vec F S1x1 .f32) : Vec F S1x1 .f32 :=
  k0_pay1 (k0_pay3 x0 x1) x2 x3 s

set_option maxHeartbeats 1000000 in
/-- At the first point the accumulator is zeroed, then the block's sum is added; the output block is left alone. -/
theorem body_first (c : Dev nD) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1x1 .f32) (harg6 : arg6.IsWhole) (arg7 : Memref sig .tc .vmem S1x1 .f32) (harg7 : arg7.IsWhole)
    (hc0 : isFirst i) (hc1 : ¬ isLast i)
    (x0 x1 : Vec F S1024x256 .f32) (x2 : Vec F S1024x1 .i32) (x3 : Vec F S1x1024 .i32) (y s : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y ∗ owns (c : Thread nD τ) arg7 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (y)
            ∗ owns (c : Thread nD τ) arg7 fullShare (accStep x0 x1 x2 x3 (k0_pay2 (F := F)))) -∗ K ⟨⟩))
      ⊢ wp frame (wpE (defs₀ (F := F)) Variants.none c none) E (cc0__instance_loss_kernel i arg2 harg2 arg3 harg3 arg4 harg4 arg5 harg5 arg6 harg6 arg7 harg7) K := by
  simp only [cc0__instance_loss_kernel_eq_skeleton]; unfold cc0__instance_loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact H5
  ipureintro
  sl_unfold_words
  rw [View.read_writes_eq_canon _ _ _ (fun y => ⟨_, List.mem_cons_self, View.mem_set_unit_zero hz2 Facts₀.inb_S1x1_S1x1_0_0 y⟩), View.canon_cons_unit_zero hz2]
  simp only [accStep, View.readAt_eq_ld, harg2.read_unread, harg3.read_unread, harg4.read_unread, harg5.read_unread, harg7.read_unread,
    View.ld_unit_zero (S := S1024x256) hz2, View.ld_unit_zero (S := S1024x1) hz2, View.ld_unit_zero (S := S1x1024) hz2, View.ld_unit_zero (S := S1x1) hz2,
    View.readCov_unit_zero (S := S1x1) _ hz2]

set_option maxHeartbeats 1000000 in
/-- At a middle point the block's sum is added to the accumulator; the output block is left alone. -/
theorem body_mid (c : Dev nD) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1x1 .f32) (harg6 : arg6.IsWhole) (arg7 : Memref sig .tc .vmem S1x1 .f32) (harg7 : arg7.IsWhole)
    (hc0 : ¬ isFirst i) (hc1 : ¬ isLast i)
    (x0 x1 : Vec F S1024x256 .f32) (x2 : Vec F S1024x1 .i32) (x3 : Vec F S1x1024 .i32) (y s : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y ∗ owns (c : Thread nD τ) arg7 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (y)
            ∗ owns (c : Thread nD τ) arg7 fullShare (accStep x0 x1 x2 x3 s)) -∗ K ⟨⟩))
      ⊢ wp frame (wpE (defs₀ (F := F)) Variants.none c none) E (cc0__instance_loss_kernel i arg2 harg2 arg3 harg3 arg4 harg4 arg5 harg5 arg6 harg6 arg7 harg7) K := by
  simp only [cc0__instance_loss_kernel_eq_skeleton]; unfold cc0__instance_loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr; swap; · iexact H5
  ipureintro
  sl_unfold_words
  rw [View.read_writes_eq_canon _ _ _ (fun y => ⟨_, List.mem_cons_self, View.mem_set_unit_zero hz2 Facts₀.inb_S1x1_S1x1_0_0 y⟩), View.canon_cons_unit_zero hz2]
  simp only [accStep, View.readAt_eq_ld, harg2.read_unread, harg3.read_unread, harg4.read_unread, harg5.read_unread, harg7.read_unread,
    View.ld_unit_zero (S := S1024x256) hz2, View.ld_unit_zero (S := S1024x1) hz2, View.ld_unit_zero (S := S1x1024) hz2, View.ld_unit_zero (S := S1x1) hz2,
    View.readCov_unit_zero (S := S1x1) _ hz2]

set_option maxHeartbeats 1000000 in
/-- At the last point the block's sum is added to the accumulator, and the accumulator is copied into the output block. -/
theorem body_last (c : Dev nD) (i : grid0.Coords)
    (arg2 : Memref sig .tc .vmem S1024x256 .f32) (harg2 : arg2.IsWhole) (arg3 : Memref sig .tc .vmem S1024x256 .f32) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1x1 .f32) (harg6 : arg6.IsWhole) (arg7 : Memref sig .tc .vmem S1x1 .f32) (harg7 : arg7.IsWhole)
    (hc0 : ¬ isFirst i) (hc1 : isLast i)
    (x0 x1 : Vec F S1024x256 .f32) (x2 : Vec F S1024x1 .i32) (x3 : Vec F S1x1024 .i32) (y s : Vec F S1x1 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y ∗ owns (c : Thread nD τ) arg7 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare (accStep x0 x1 x2 x3 s)
            ∗ owns (c : Thread nD τ) arg7 fullShare (accStep x0 x1 x2 x3 s)) -∗ K ⟨⟩))
      ⊢ wp frame (wpE (defs₀ (F := F)) Variants.none c none) E (cc0__instance_loss_kernel i arg2 harg2 arg3 harg3 arg4 harg4 arg5 harg5 arg6 harg6 arg7 harg7) K := by
  simp only [cc0__instance_loss_kernel_eq_skeleton]; unfold cc0__instance_loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    sl_unfold_words
    rw [View.read_writes_eq_canon _ _ _ (fun y => ⟨_, List.mem_cons_self, View.mem_set_unit_zero hz2 Facts₀.inb_S1x1_S1x1_0_0 y⟩), View.canon_cons_unit_zero hz2]
    simp only [accStep, View.readAt_eq_ld, harg2.read_unread, harg3.read_unread, harg4.read_unread, harg5.read_unread, harg7.read_unread,
      View.ld_unit_zero (S := S1024x256) hz2, View.ld_unit_zero (S := S1024x1) hz2, View.ld_unit_zero (S := S1x1024) hz2, View.ld_unit_zero (S := S1x1) hz2,
      View.readCov_unit_zero (S := S1x1) _ hz2]
  iexists _; isplitr; swap; · iexact H5
  ipureintro
  sl_unfold_words
  rw [View.read_writes_eq_canon _ _ _ (fun y => ⟨_, List.mem_cons_self, View.mem_set_unit_zero hz2 Facts₀.inb_S1x1_S1x1_0_0 y⟩), View.canon_cons_unit_zero hz2]
  simp only [accStep, View.readAt_eq_ld, harg2.read_unread, harg3.read_unread, harg4.read_unread, harg5.read_unread, harg7.read_unread,
    View.ld_unit_zero (S := S1024x256) hz2, View.ld_unit_zero (S := S1024x1) hz2, View.ld_unit_zero (S := S1x1024) hz2, View.ld_unit_zero (S := S1x1) hz2,
    View.readCov_unit_zero (S := S1x1) _ hz2]

end Cert.KernelIdeal.Hand

end
-- ==== Proof.HandKernelIdeal.Data.lean ====
import proofs.«144776_j80547816669829_1_alg».proof.Proof.HandKernelIdeal.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pipeline's proof data

What the region finds in its arrays, each input window's block at a grid point, the accumulator after each point, and
the body obligation at every point of the 8 × 8 grid. -/

variable (m : (ℓ : Loc nD τ sig) → Buf (Elt F) ℓ) (ρ : Dev nD → PrngReg)

/-- Core `c`'s buffers at launch, as a valuation; -/
abbrev V0 (c : Dev nD) : Valuation τ sig (Elt F) := fun b => m (c, b)
/-- when the region is entered: the two reshapes of the labels have run; -/
abbrev V1 (c : Dev nD) : Valuation τ sig (Elt F) := StableHlo.after hostOps0 (V0 m c)
/-- and the same read at a TensorCore reference. -/
abbrev V (c : Dev nD) (b : Ref sig .tc) : Buf (Elt F) ((c : Thread nD τ).loc b) := V1 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The accumulator after the body at position `n`: zero plus the masked distance sums of the blocks of the points up to `n`. -/
def accAt (c : Dev nD) : (n : ℕ) → n < cfg0.N → Vec F S1x1 .f32
  | 0, h => accStep (iblk m c 0 ⟨0, h⟩) (iblk m c 1 ⟨0, h⟩) (iblk m c 2 ⟨0, h⟩) (iblk m c 3 ⟨0, h⟩) (k0_pay2 (F := F))
  | n + 1, h => accStep (iblk m c 0 ⟨n + 1, h⟩) (iblk m c 1 ⟨n + 1, h⟩) (iblk m c 2 ⟨n + 1, h⟩) (iblk m c 3 ⟨n + 1, h⟩) (accAt c n (Nat.lt_of_succ_lt h))

theorem accAt_first (c : Dev nD) (t : Fin cfg0.N) (h0 : t.val = 0) :
    accAt m c t.val t.isLt = accStep (iblk m c 0 t) (iblk m c 1 t) (iblk m c 2 t) (iblk m c 3 t) (k0_pay2 (F := F)) := by
  obtain ⟨n, hn⟩ := t
  cases n with
  | zero => rfl
  | succ n => exact absurd h0 (Nat.succ_ne_zero n)

theorem accAt_pos (c : Dev nD) (t : Fin cfg0.N) (h0 : t.val ≠ 0) :
    accAt m c t.val t.isLt = accStep (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd rfl h0
  | succ n => rfl

/-! ## The conditionals over the grid, and where the output window is idle -/

theorem hfirst : ∀ t : Fin cfg0.N, isFirst (grid0.coords t) ↔ t.val = 0 :=
  (by decide +kernel : ∀ t : Fin grid0.N, isFirst (grid0.coords t) ↔ t.val = 0)
theorem hlast : ∀ t : Fin cfg0.N, isLast (grid0.coords t) ↔ t.val = 63 :=
  (by decide +kernel : ∀ t : Fin grid0.N, isLast (grid0.coords t) ↔ t.val = 63)
/-- Away from the last point the output window is idle and not written back; -/
theorem idle4 : ∀ t : Fin cfg0.N, ¬ isLast (grid0.coords t) → cfg0.idle 4 (grid0.coords t) = true := by decide +kernel
theorem noflush4 : ∀ t : Fin cfg0.N, ¬ isLast (grid0.coords t) → (cfg0.win 4).flush t = false := by decide +kernel
/-- at the last point it is live. -/
theorem live4 : ∀ t : Fin cfg0.N, isLast (grid0.coords t) → cfg0.idle 4 (grid0.coords t) = false := by decide +kernel

/-! ## The staging memrefs at a point -/

abbrev ms0 (t : Fin cfg0.N) : Memref sig .tc .vmem S1024x256 .f32 := win0_0.stage (cfg0.slots t 0)
abbrev ms1 (t : Fin cfg0.N) : Memref sig .tc .vmem S1024x256 .f32 := win0_1.stage (cfg0.slots t 1)
abbrev ms2 (t : Fin cfg0.N) : Memref sig .tc .vmem S1024x1 .i32 := win0_2.stage (cfg0.slots t 2)
abbrev ms3 (t : Fin cfg0.N) : Memref sig .tc .vmem S1x1024 .i32 := win0_3.stage (cfg0.slots t 3)
abbrev ms4 (t : Fin cfg0.N) : Memref sig .tc .vmem S1x1 .f32 := win0_4.stage (cfg0.slots t 4)
/-- The scratch accumulator. -/
abbrev scM : Memref sig .tc .vmem S1x1 .f32 := Memref.whole cc0_scratch0

/-! ## The invariant: the accumulator between points -/

/-- Before the first point the scratch holds anything; afterwards what the point before left. -/
def PhiS (c : Dev nD) : (n : ℕ) → n ≤ cfg0.N → sProp 𝕄
  | 0, _ => Pipeline.scopedRest spec0 c
  | n + 1, hn => owns (c : Thread nD τ) scM fullShare (accAt m c n hn)

theorem PhiS_zero (c : Dev nD) (n : ℕ) (h : n ≤ cfg0.N) (hz : n = 0) : PhiS m c n h = Pipeline.scopedRest spec0 c := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The arrays as the region finds them; after the body each input's buffer at its block and the output's at the
    accumulator; the two windows on the embeddings hold one half of that array's share each. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = accAt m c t.val t.isLt := by dsimp only [dats]

/-- Each input's current staging buffer holds its block at every point, fetched there or not: unfetched, the block
    index has not moved and the body left the block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-- An input window is live at every point: its buffer is left at the block. -/
theorem leaves0 (c : Dev nD) (t : Fin cfg0.N) : (dats m 0 c).leavesExact 0 t = owns (c : Thread nD τ) (ms0 t) fullShare (iblk m c 0 t) := by
  rw [← after0]
theorem leaves1 (c : Dev nD) (t : Fin cfg0.N) : (dats m 0 c).leavesExact 1 t = owns (c : Thread nD τ) (ms1 t) fullShare (iblk m c 1 t) := by
  rw [← after1]
theorem leaves2 (c : Dev nD) (t : Fin cfg0.N) : (dats m 0 c).leavesExact 2 t = owns (c : Thread nD τ) (ms2 t) fullShare (iblk m c 2 t) := by
  rw [← after2]
theorem leaves3 (c : Dev nD) (t : Fin cfg0.N) : (dats m 0 c).leavesExact 3 t = owns (c : Thread nD τ) (ms3 t) fullShare (iblk m c 3 t) := by
  rw [← after3]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4000000 in
/-- The body at any point: the inputs' buffers hold their blocks; the point is the first, a middle one or the last;
    the invariant hands the body the accumulator at what the point before left (anything, at the first point) and
    takes it back at this point's value. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3]
  have hN : t.val < 64 := lt_of_lt_of_eq t.isLt (show cfg0.N = 64 from N_0)
  by_cases h0 : t.val = 0
  · have hl : ¬ isLast (grid0.coords t) := fun h => by have := (hlast t).mp h; omega
    rw [Dat.leavesExact_idle (dats m 0 c) 4 t (idle4 t hl) (noflush4 t hl)]
    rw [PhiS_castSucc m c t, PhiS_zero m c _ _ h0, scopedRest0_eq, accAt_first m c t h0]
    iintro ⟨⟨%fs, HS⟩, Ho, ⟨%d0, H0⟩, ⟨%d1, H1⟩, ⟨%d2, H2⟩, ⟨%d3, H3⟩, ⟨%d4, H4⟩⟩
    iapply (body_first c (grid0.coords t) _ _ _ _ _ _ _ _ _ _ _ _ ((hfirst t).mpr h0) hl
      (iblk m c 0 t) (iblk m c 1 t) (iblk m c 2 t) (iblk m c 3 t) _ fs Set.univ _)
    isplitl [H0]; · iexact H0
    isplitl [H1]; · iexact H1
    isplitl [H2]; · iexact H2
    isplitl [H3]; · iexact H3
    isplitl [H4]; · iexact H4
    isplitl [HS]; · rw [owns_whole]; iexact HS
    iintro ⟨H0, H1, H2, H3, H4, HS⟩
    isplitl [HS]; · iexact HS
    isplitl [Ho]; · iexact Ho
    isplitl [H0]; · iexact H0
    isplitl [H1]; · iexact H1
    isplitl [H2]; · iexact H2
    isplitl [H3]; · iexact H3
    iexists _; iexact H4
  · have hf : ¬ isFirst (grid0.coords t) := fun h => h0 ((hfirst t).mp h)
    rw [PhiS_castSucc m c t, PhiS_pos m c _ _ h0, accAt_pos m c t h0]
    by_cases h1 : t.val = 63
    · have hl : isLast (grid0.coords t) := (hlast t).mpr h1
      rw [show (dats m 0 c).leavesExact 4 t = owns (c : Thread nD τ) (ms4 t) fullShare ((dats m 0 c).after 4 t) from by
        unfold Dat.leavesExact; rw [live4 t hl], after4, accAt_pos m c t h0]
      iintro ⟨HS, Ho, ⟨%d0, H0⟩, ⟨%d1, H1⟩, ⟨%d2, H2⟩, ⟨%d3, H3⟩, ⟨%d4, H4⟩⟩
      iapply (body_last c (grid0.coords t) _ _ _ _ _ _ _ _ _ _ _ _ hf hl
        (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexact H4
    · have hl : ¬ isLast (grid0.coords t) := fun h => h1 ((hlast t).mp h)
      rw [Dat.leavesExact_idle (dats m 0 c) 4 t (idle4 t hl) (noflush4 t hl)]
      iintro ⟨HS, Ho, ⟨%d0, H0⟩, ⟨%d1, H1⟩, ⟨%d2, H2⟩, ⟨%d3, H3⟩, ⟨%d4, H4⟩⟩
      iapply (body_mid c (grid0.coords t) _ _ _ _ _ _ _ _ _ _ _ _ hf hl
        (iblk m c 0 t) (iblk m c 1 t) (iblk m c 2 t) (iblk m c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS]; · iexact HS
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the region's entry hands the body is the invariant before the first point. -/
theorem Phi_in (c : Dev nD) : Pipeline.scopedRest spec0 c ⊢ (dats m 0 c).Φ 0 := by
  rw [show (dats m 0 c).Φ 0 = PhiS m c 0 (Nat.zero_le _) from rfl, PhiS_zero m c 0 _ rfl]

/-- A scratch buffer held at named contents is held at some contents. -/
theorem scratch_forget (c : Dev nD) (x : Vec F S1x1 .f32) :
    owns (c : Thread nD τ) scM fullShare x
      ⊢ (iprop(∃ f : Buf (Elt F) ((c : Thread nD τ).loc cc0_scratch0), ((c : Thread nD τ).loc cc0_scratch0) ↦{fullShare} f) : sProp 𝕄) := by
  rw [owns_whole]
  iintro HS
  iexists _; iexact HS

/-- After the last point the invariant gives the scratch buffer back, its contents forgotten. -/
theorem Phi_out (c : Dev nD) : (dats m 0 c).Φ (Fin.last cfg0.N) ⊢ Pipeline.scopedRest spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest0_eq]
  exact scratch_forget c _

end Cert.KernelIdeal.Hand

end
-- ==== Proof.HandKernelIdeal.Run.lean ====
import proofs.«144776_j80547816669829_1_alg».proof.Proof.HandKernelIdeal.Data
import Idealize.ShloMosaic.Lib.Pipeline.Regions
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

/-! # The run of @main

@main is two reshapes of the labels, the kernel region, and three host operations on the region's result (a reshape to
a scalar, a constant, their quotient). The two windows on the embeddings read ONE array: its buffer's full share is split
into halves at the region's entry, one half per window, and joined again at its exit. -/

variable (m : (ℓ : Loc nD τ sig) → Buf (Elt F) ℓ) (ρ : Dev nD → PrngReg)

/-- The pipeline library's algebra is the certificate's. -/
abbrev EP : Emb (UR sig nD τ) (MT nD τ sig Unit (Elt F) ℕ (UR sig nD τ) ℕ) := emb₁
/-- No core owes another anything: no level is assigned. -/
abbrev L : GSem nD τ sig → Finset Unit := fun _ => ∅
abbrev lv : GSem nD τ sig → Unit → ℕ := fun _ _ => 0
/-- No table is prefetched. -/
abbrev adm : (p : Fin 1) → (pcfgs (F := F) p).Adm := fun p => (cfgs p).toPCfg_adm
/-- What rides beside the buffers: the core owes nothing. -/
abbrev R (c : Dev nD) : sProp 𝕄 := iprop(∃ W, owes (c : Thread nD τ) (0 : CellTallies nD τ sig Unit) W)

/-- What the region leaves in its result array. -/
def outF (c : Dev nD) : Buf (Elt F) ((c : Thread nD τ).loc main_v2) := (dats m 0 c).arrAt 4 cfg0.N

/-- Core `c`'s buffers after the region, which may change its result array only; -/
abbrev V2 (c : Dev nD) : Valuation τ sig (Elt F) := Function.update (V1 m c) main_v2 (outF m c)
/-- and after the three host operations that follow it. -/
abbrev V3 (c : Dev nD) : Valuation τ sig (Elt F) := StableHlo.after hostOps1 (V2 m c)
/-- `V2` read at a TensorCore reference. -/
abbrev Vb2 (c : Dev nD) (b : Ref sig .tc) : Buf (Elt F) ((c : Thread nD τ).loc b) := V2 m c (Proc.devRef .tc b)

/-! ## What the host stretches write -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
abbrev hostOps0_W : List (Ref sig .tc) := [main_v0, main_v1]
abbrev hostOps1_W : List (Ref sig .tc) := [main_v3, main_cst, main_v4]
theorem hostOps0_writes : (hostOps0 : List (HloOp τ sig (Elt F))).Forall fun op => op.writes ⊆ (hostOps0_W.map (Proc.devRef (τ := τ) .tc)).toFinset := by
  simp only [List.Forall]
  refine ⟨?_, ?_⟩ <;>
    (simp only [StableHlo.reshape_writes, Finset.singleton_subset_iff, List.mem_toFinset]; exact List.mem_map_of_mem (by decide))
theorem hostOps1_writes : (hostOps1 : List (HloOp τ sig (Elt F))).Forall fun op => op.writes ⊆ (hostOps1_W.map (Proc.devRef (τ := τ) .tc)).toFinset := by
  simp only [List.Forall]
  refine ⟨?_, ?_, ?_⟩ <;>
    (simp only [StableHlo.reshape_writes, StableHlo.nullary_writes, StableHlo.binary_writes, Finset.singleton_subset_iff, List.mem_toFinset]; exact List.mem_map_of_mem (by decide))

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ≠ main_v2) : V2 m c r = V1 m c r := by
  simp only [V2, Function.update_of_ne (StableHlo.devRef_ne_of_ne h : (Proc.devRef .tc r : DevRef τ sig) ≠ Proc.devRef .tc main_v2)]
theorem V2_out (c : Dev nD) : V2 m c main_v2 = outF m c := by
  simp only [V2, Function.update_self]
theorem V3_of (c : Dev nD) (r : Ref sig .tc) (h : r ∉ hostOps1_W) : V3 m c r = V2 m c r :=
  StableHlo.after_of_writes_sub hostOps1 _ hostOps1_writes h

/-- No item writes an argument. -/
theorem V3_arg0 (c : Dev nD) : V3 m c main_arg0 = m ((c : Thread nD τ).loc main_arg0) :=
  (V3_of m c main_arg0 (by decide)).trans <| (V2_of m c main_arg0 (by decide)).trans <| (V1_of m c main_arg0 (by decide)).trans rfl
theorem V3_arg1 (c : Dev nD) : V3 m c main_arg1 = m ((c : Thread nD τ).loc main_arg1) :=
  (V3_of m c main_arg1 (by decide)).trans <| (V2_of m c main_arg1 (by decide)).trans <| (V1_of m c main_arg1 (by decide)).trans rfl

/-! ## The windows' arrays, listed -/

/-- The distinct buffers behind the five windows' arrays are four. -/
theorem arrBufs_list (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg0, main_v0, main_v1, main_v2] (by decide) (by decide) _

/-- The five windows' arrays at their shares: the embeddings' buffer twice, at the two halves of its share. -/
theorem arrays_list (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W0, (arr_whole0 0).set_eq_univ, (arr_whole0 2).set_eq_univ, (arr_whole0 3).set_eq_univ, (arr_whole0 4).set_eq_univ]
  rfl

/-- ENTRY: the four buffers at the region-entry contents are the five arrays, the embeddings' share halved. -/
theorem arrays_of_bufs (c : Dev nD) :
    (Pipeline.arrBufs spec0 c (V m c) : sProp 𝕄) ⊢ (dats m 0 c).arrays ((dats m 0 c).arrAt · 0) := by
  rw [arrBufs_list, arrays_list]
  iintro ⟨Ha, Hv0, Hv1, Hv2⟩
  ihave Hs := (pointsTo_share (PosShare.mem_left_op_right fullShare)).1 $$ Ha
  icases Hs with ⟨Hl, Hr⟩
  isplitl [Hl]; · iexact Hl
  isplitl [Hr]; · iexact Hr
  isplitl [Hv0]; · iexact Hv0
  isplitl [Hv1]; · iexact Hv1
  iexact Hv2

theorem entry_split (c : Dev nD) :
    (unscopedBufs c (V m c) : sProp 𝕄)
      ⊢ iprop((dats m 0 c).arrays ((dats m 0 c).arrAt · 0) ∗ Pipeline.unscopedRest spec0 c (V m c)) := by
  rw [Pipeline.unscopedBufs_split₀ cfgs 0 winFacts₀0.arr_unscoped c (V m c)]
  exact sep_mono (arrays_of_bufs m c) .rfl

/-- EXIT: the five arrays after the run are the four buffers at the contents after the region, the halves joined. -/
theorem bufs_of_arrays (c : Dev nD) :
    ((dats m 0 c).arrays ((dats m 0 c).arrAt · cfg0.N) : sProp 𝕄) ⊢ Pipeline.arrBufs spec0 c (Vb2 m c) := by
  rw [arrBufs_list, arrays_list]
  rw [(dats m 0 c).arrAt_in 0 rfl, (dats m 0 c).arrAt_in 1 rfl, (dats m 0 c).arrAt_in 2 rfl, (dats m 0 c).arrAt_in 3 rfl]
  rw [show Vb2 m c main_arg0 = V m c main_arg0 from V2_of m c main_arg0 (by decide),
    show Vb2 m c main_v0 = V m c main_v0 from V2_of m c main_v0 (by decide),
    show Vb2 m c main_v1 = V m c main_v1 from V2_of m c main_v1 (by decide),
    show Vb2 m c main_v2 = outF m c from V2_out m c]
  iintro ⟨Hl, Hr, Hv0, Hv1, Hv2⟩
  isplitl [Hl Hr]
  · iapply (pointsTo_share (PosShare.mem_left_op_right fullShare)).2
    isplitl [Hl]; · iexact Hl
    iexact Hr
  isplitl [Hv0]; · iexact Hv0
  isplitl [Hv1]; · iexact Hv1
  iexact Hv2

/-- The buffers no window stages hold after the region what they held before it. -/
theorem rest_after (c : Dev nD) :
    (Pipeline.unscopedRest spec0 c (V m c) : sProp 𝕄) = Pipeline.unscopedRest spec0 c (Vb2 m c) := by
  rw [unscopedRest0_eq, unscopedRest0_eq]
  rw [show Vb2 m c main_arg1 = V m c main_arg1 from V2_of m c main_arg1 (by decide),
    show Vb2 m c main_v3 = V m c main_v3 from V2_of m c main_v3 (by decide),
    show Vb2 m c main_cst = V m c main_cst from V2_of m c main_cst (by decide),
    show Vb2 m c main_v4 = V m c main_v4 from V2_of m c main_v4 (by decide)]

theorem exit_join (c : Dev nD) :
    iprop((dats m 0 c).arrays ((dats m 0 c).arrAt · cfg0.N) ∗ Pipeline.unscopedRest spec0 c (V m c))
      ⊢ (unscopedBufs c (Vb2 m c) : sProp 𝕄) := by
  rw [Pipeline.unscopedBufs_split₀ cfgs 0 winFacts₀0.arr_unscoped c (Vb2 m c), rest_after]
  exact sep_mono (bufs_of_arrays m c) .rfl

/-! ## The segments -/

/-- The two reshapes before the region, over the unscoped buffers from the launch contents. -/
def seg0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
/-- The three operations after the region, from the contents the region leaves. -/
def seg2 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) R

set_option backward.isDefEq.respectTransparency.types false in
/-- THE REGION: entered from the buffers after the two reshapes — the windows' arrays into the pipeline, the embeddings'
    share halved, everything else bypassing —, left with the result array at what the last point wrote back. -/
def reg0 : RegionSeg (pcfgs (F := F)) adm (dats m) () defs₀ Variants.none L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m c) ∗ R c)
  X c := iprop(emp)
  Y c := iprop(emp)
  Z c := Pipeline.unscopedRest spec0 c (V m c)
  hentry c := by
    rw [show StableHlo.held (c : Thread nD τ) (Pipeline.ucRefs τ sig) (V1 m c) = unscopedBufs c (V m c) from (Pipeline.unscopedBufs_held c _).symm]
    iintro ⟨⟨Hub, HO⟩, -, -⟩
    ihave H := (entry_split m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    iintro ⟨-, -, Hr⟩
    iapply (Phi_in m c); iexact Hr
  hout c := by
    rw [Pipeline.ownSems0_none]
    iintro H
    ihave Hr := (Phi_out m c) $$ H
    isplitr; · iempintro
    isplitr; · iempintro
    iexact Hr
  hexit c := by
    rw [show StableHlo.held (c : Thread nD τ) (Pipeline.ucRefs τ sig) (V2 m c) = unscopedBufs c (Vb2 m c) from (Pipeline.unscopedBufs_held c _).symm]
    iintro ⟨Ha, HO, -, HZ⟩
    imodintro
    isplitr [HO]
    · iapply (exit_join m c)
      isplitl [Ha]; · iexact Ha
      iexact HZ
    · unfold Pipeline.Dat.owesAt Pipeline.owesWithin
      icases HO with ⟨%W, -, HO⟩; iexists W; iexact HO

/-- @main as the list of the three. -/
abbrev segs : List (Seg (pcfgs (F := F)) adm (dats m) () defs₀ Variants.none L lv) := [.host (seg0 m), .region (reg0 m), .host (seg2 m)]

/-- The launch element: the pipeline library's at the staging cells. -/
def u₀ : UR sig nD τ := initOf (Pipeline.cells cfgs cellOf_inj) (Pipeline.launchToks cfgs cellOf_inj)

set_option backward.isDefEq.respectTransparency.types false in
/-- At the compiled mesh, for any float values, from any memory with zero counters: every weakly fair execution of @main
    terminates, and every final state has the result at what the three last operations make of the region's result, and
    both arguments as launched. -/
theorem run_main : θ_run defs (onTc (τ := τ) (main (F := F))) ⟨m, fun _ => 0, ρ⟩ (fun r => ∀ c : Dev nD,
      r.2.mem ((c.tc : Thread nD τ).loc main_v4) = V3 m c main_v4
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (dats m) () cellOf_inj EP defs₀ Variants.none L lv m ρ main (segs m)
    (fun c Q => by rw [main_segs adm (dats m) () Variants.none L lv (seg0 m) (seg2 m) (reg0 m) rfl rfl c])
    (by simp only [Seg.pipes_host, Seg.pipes_region, Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V3 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => s.mem ((c.tc : Thread nD τ).loc main_v4) = V3 m c main_v4
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => by
      unfold StableHlo.held
      iintro ⟨Hh, HSI⟩
      ihave Hr := (pointsTo_read_all (Pipeline.ucRefs τ sig) (fun b => ((c : Thread nD τ).1, b)) (V3 m c) s') $$ [Hh HSI]
      · isplitl [Hh] <;> iassumption
      icases Hr with ⟨%h, HSI⟩
      imodintro
      isplitr
      · ipureintro
        have hm : ∀ r : Ref sig .tc, r.isScoped = false → s'.mem.mem ((c.tc : Thread nD τ).loc r) = V3 m c r := fun r hr =>
          h (Proc.devRef .tc r) (Finset.mem_filter.mpr ⟨StableHlo.devRef_mem_tcRefs r, by simpa using hr⟩)
        exact ⟨hm main_v4 (by decide), (hm main_arg0 (by decide)).trans (V3_arg0 m c), (hm main_arg1 (by decide)).trans (V3_arg1 m c)⟩
      · iexact HSI)
    (hQ := fun _ h => h)

end Cert.KernelIdeal.Hand

end
-- ==== Proof.Spec.lean ====
import Idealize.ShloMosaic.PureOps.Ideal
import Idealize.ShloMosaic.PureOps.Ideal.Laws
import Mathlib.Algebra.BigOperators.Intervals
import Mathlib.Algebra.BigOperators.Fin
import Idealize.ShloMosaic.Lib.ValueIdx

/-! # The pairwise loss as one function of the arguments

For embeddings `E i k` (8192 rows of 256) and labels `lab i`, the loss is the sum over ALL ordered pairs `(i, j)` of the
masked distance `[lab i = lab j] · √(max(‖e_i‖² + ‖e_j‖² − 2 e_i·e_j + 2ε(Σe_i − Σe_j) + 256ε², 0))`, divided by
8192 · 8191. The kernel adds the pairs up tile by tile (64 tiles of 1024 × 1024 pairs, in row-major order of the
tiles); a finite sum in a commutative monoid does not depend on that grouping. Rows and labels are indexed by natural
numbers here so that a tile's offset is plain arithmetic. -/

noncomputable section

namespace Cert.PairLoss

open Idealize.ShloMosaic
open Finset

/-- The masked distance of one pair from its scalar ingredients: the two labels, the two squared norms, the inner
    product and the two row sums. -/
def pairTerm (li lj : BitVec 32) (sqi sqj g rsi rsj : EReal) : EReal :=
  Scalar.select (IntOp.cmpi .eq li lj)
    (Ideal.sqrt (max (sqi + sqj - Ideal.ofBits .f32 0x40000000#32 * g + Ideal.ofBits .f32 0x360637BD#32 * (rsi - rsj)
      + Ideal.ofBits .f32 0x2F8CBCCC#32) (Ideal.ofBits .f32 0x00000000#32)))
    (Ideal.ofBits .f32 0x00000000#32)

variable (E : ℕ → ℕ → EReal) (lab : ℕ → BitVec 32)

/-- The masked distance of rows `i` and `j`. -/
def pairAt (i j : ℕ) : EReal :=
  pairTerm (lab i) (lab j) (∑ k ∈ range 256, E i k * E i k) (∑ k ∈ range 256, E j k * E j k)
    (∑ k ∈ range 256, E i k * E j k) (∑ k ∈ range 256, E i k) (∑ k ∈ range 256, E j k)

/-- The sum over all ordered pairs of rows; -/
def total : EReal := ∑ i ∈ range 8192, ∑ j ∈ range 8192, pairAt E lab i j

/-- and the loss: that sum over 8192 · 8191. -/
def loss : EReal := Ideal.div (total E lab) (Ideal.ofBits .f32 0x4C7FF800#32)

/-- The embeddings array read at natural-number coordinates (zero outside the array); -/
def rowsOf (X : (⟨2, ![8192, 256]⟩ : Shape).Idx → EReal) (i k : ℕ) : EReal :=
  if h : i < 8192 ∧ k < 256 then X (ValueIdx.ix2 ⟨i, h.1⟩ ⟨k, h.2⟩) else 0

/-- and the labels likewise. -/
def labelsOf (Y : (⟨1, ![8192]⟩ : Shape).Idx → BitVec 32) (i : ℕ) : BitVec 32 :=
  if h : i < 8192 then Y (ValueIdx.ix1 ⟨i, h⟩) else 0#32

omit E lab in
theorem rowsOf_fin (X : (⟨2, ![8192, 256]⟩ : Shape).Idx → EReal) (i : Fin 8192) (k : Fin 256) :
    rowsOf X i.val k.val = X (ValueIdx.ix2 i k) := by
  unfold rowsOf; rw [dif_pos ⟨i.isLt, k.isLt⟩]

omit E lab in
theorem rowsOf_lt (X : (⟨2, ![8192, 256]⟩ : Shape).Idx → EReal) (i k : ℕ) (hi : i < 8192) (hk : k < 256) :
    rowsOf X i k = X (ValueIdx.ix2 ⟨i, hi⟩ ⟨k, hk⟩) := by
  unfold rowsOf; rw [dif_pos ⟨hi, hk⟩]

omit E lab in
theorem labelsOf_fin (Y : (⟨1, ![8192]⟩ : Shape).Idx → BitVec 32) (i : Fin 8192) : labelsOf Y i.val = Y (ValueIdx.ix1 i) := by
  unfold labelsOf; rw [dif_pos i.isLt]

omit E lab in
theorem labelsOf_lt (Y : (⟨1, ![8192]⟩ : Shape).Idx → BitVec 32) (i : ℕ) (hi : i < 8192) : labelsOf Y i = Y (ValueIdx.ix1 ⟨i, hi⟩) := by
  unfold labelsOf; rw [dif_pos hi]

/-- A sum taken block by block, `a` consecutive blocks of `b` terms, is the one sum over `a * b` terms. -/
theorem sum_blocks {M : Type*} [AddCommMonoid M] (a b : ℕ) (t : ℕ → M) :
    ∑ i ∈ range a, ∑ j ∈ range b, t (i * b + j) = ∑ n ∈ range (a * b), t n := by
  induction a with
  | zero => simp
  | succ a ih => rw [Finset.sum_range_succ, ih, Nat.succ_mul, Finset.sum_range_add]

/-- A double sum over `A * B` rows and columns, taken tile by tile — `A * A` tiles of `B × B`, tile `t` at block row
    `t / A` and block column `t % A` — is the double sum. -/
theorem sum_tiles {M : Type*} [AddCommMonoid M] (A B : ℕ) (hA : 0 < A) (f : ℕ → ℕ → M) :
    ∑ t ∈ range (A * A), ∑ p ∈ range B, ∑ q ∈ range B, f (t / A * B + p) (t % A * B + q)
      = ∑ i ∈ range (A * B), ∑ j ∈ range (A * B), f i j := by
  rw [← sum_blocks A A (fun t => ∑ p ∈ range B, ∑ q ∈ range B, f (t / A * B + p) (t % A * B + q))]
  rw [← sum_blocks A B (fun i => ∑ j ∈ range (A * B), f i j)]
  refine Finset.sum_congr rfl fun a _ => ?_
  have h1 : ∀ b ∈ range A, (∑ p ∈ range B, ∑ q ∈ range B, f ((a * A + b) / A * B + p) ((a * A + b) % A * B + q))
      = ∑ p ∈ range B, ∑ q ∈ range B, f (a * B + p) (b * B + q) := by
    intro b hb
    have hb' : b < A := Finset.mem_range.mp hb
    have e1 : (a * A + b) / A = a := by
      rw [Nat.mul_comm a A, Nat.mul_add_div hA, Nat.div_eq_of_lt hb', Nat.add_zero]
    have e2 : (a * A + b) % A = b := by
      rw [Nat.mul_comm a A, Nat.mul_add_mod, Nat.mod_eq_of_lt hb']
    rw [e1, e2]
  rw [Finset.sum_congr rfl h1, Finset.sum_comm]
  refine Finset.sum_congr rfl fun p _ => ?_
  rw [← sum_blocks A B (fun j => f (a * B + p) j)]

/-- The kernel's grouping of the pairs: 64 tiles of 1024 × 1024. -/
theorem total_tiles :
    ∑ t ∈ range 64, ∑ p ∈ range 1024, ∑ q ∈ range 1024, pairAt E lab (t / 8 * 1024 + p) (t % 8 * 1024 + q) = total E lab :=
  sum_tiles 8 1024 (by decide) (pairAt E lab)

end Cert.PairLoss

end
-- ==== Proof.KernelTile.lean ====
import proofs.«144776_j80547816669829_1_alg».proof.Proof.Gen.KernelIdeal.Skeleton
import proofs.«144776_j80547816669829_1_alg».proof.Proof.Spec
import Idealize.ShloMosaic.Lib.ValueIdx
import Idealize.ShloMosaic.Lib.ValueLayout
import Idealize.ShloMosaic.Lib.Pipeline.Value
import Idealize.ShloMosaic.PureOps.Ideal.Laws

/-! # One tile of the kernel on the extended reals

The body's arithmetic on a pair of embedding blocks `x0` (rows `p`) and `x1` (rows `q`) and the two label blocks,
read entry by entry: entry `(p, q)` of the masked distance tile is the pair's masked distance from the rows' squared
norms, inner product and row sums, each a sum over the 256 features; the accumulator grows by the sum of the tile. -/

noncomputable section

namespace Cert.KernelIdeal.Tile

open Cert.KernelIdeal Cert.KernelIdeal.Gen Cert.PairLoss
open Idealize.ShloMosaic Idealize.ShloMosaic.ValueIdx

/-- A row's feature sum, kept as a column and spread over the columns: entry `(p, q)` is row `p`'s sum. -/
theorem colsum_apply (v : FVec Ideal S1024x256 .f32) (p q : Fin 1024) :
    broadcastTo S1024x1024 (shapeCast S1024x1 (multiReduction .add [1] S1024 v 0x00000000#32 Facts₀.reduces_S1024x256_S1024 (.inl rfl) rfl)
        Facts₀.shapeCasts_S1024_S1024x1) Facts₀.broadcasts_S1024x1_S1024x1024 (ix2 p q)
      = ∑ k : Fin 256, v (ix2 p k) := by
  refine (broadcastTo_apply _ Facts₀.broadcasts_S1024x1_S1024x1024 (ix2 p q) (ix2 p (0 : Fin 1)) (fun ax => ?_)).trans ?_
  · match ax with
    | ⟨0, _⟩ => rfl
    | ⟨1, _⟩ => rfl
  refine (shapeCast_apply _ Facts₀.shapeCasts_S1024_S1024x1 (ix2 p (0 : Fin 1)) (ix1 p) ?_).trans ?_
  · rw [Shape.rowMajor_val_one, Shape.rowMajor_val_two]
    show p.val = p.val * 1 + 0
    omega
  refine (Ideal.multiReduction_add_single v 0x00000000#32 Facts₀.reduces_S1024x256_S1024 (.inl rfl) rfl (ix1 p)).trans ?_
  exact Finset.sum_congr rfl fun k _ => congrArg v (funext fun a => Fin.ext (by match a with | ⟨0, _⟩ => rfl | ⟨1, _⟩ => rfl))

/-- A row's feature sum, laid as a row and spread over the rows: entry `(p, q)` is row `q`'s sum. -/
theorem rowsum_apply (v : FVec Ideal S1024x256 .f32) (p q : Fin 1024) :
    broadcastTo S1024x1024 (shapeCast S1x1024 (multiReduction .add [1] S1024 v 0x00000000#32 Facts₀.reduces_S1024x256_S1024 (.inl rfl) rfl)
        Facts₀.shapeCasts_S1024_S1x1024) Facts₀.broadcasts_S1x1024_S1024x1024 (ix2 p q)
      = ∑ k : Fin 256, v (ix2 q k) := by
  refine (broadcastTo_1b_ab_apply _ Facts₀.broadcasts_S1x1024_S1024x1024 p q).trans ?_
  refine (shapeCast_apply _ Facts₀.shapeCasts_S1024_S1x1024 (ix2 (0 : Fin 1) q) (ix1 q) ?_).trans ?_
  · rw [Shape.rowMajor_val_one, Shape.rowMajor_val_two]
    show q.val = 0 * 1024 + q.val
    omega
  refine (Ideal.multiReduction_add_single v 0x00000000#32 Facts₀.reduces_S1024x256_S1024 (.inl rfl) rfl (ix1 q)).trans ?_
  exact Finset.sum_congr rfl fun k _ => congrArg v (funext fun a => Fin.ext (by match a with | ⟨0, _⟩ => rfl | ⟨1, _⟩ => rfl))

/-! ## The inner products -/

theorem lhs_0 (i : S1024x1024.Idx) (r : dot_S1024x256_S256x1024_S1024x1024_1_0_0_1_n_n.contr.Idx) : (dot_S1024x256_S256x1024_S1024x1024_1_0_0_1_n_n.lhsIdx i r 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_1 (i : S1024x1024.Idx) (r : dot_S1024x256_S256x1024_S1024x1024_1_0_0_1_n_n.contr.Idx) : (dot_S1024x256_S256x1024_S1024x1024_1_0_0_1_n_n.lhsIdx i r 1).val = (r ⟨0, by decide⟩).val :=
  dot_S1024x256_S256x1024_S1024x1024_1_0_0_1_n_n.lhsIdx_val_of_single rfl i r
theorem rhs_0 (i : S1024x1024.Idx) (r : dot_S1024x256_S256x1024_S1024x1024_1_0_0_1_n_n.contr.Idx) : (dot_S1024x256_S256x1024_S1024x1024_1_0_0_1_n_n.rhsIdx i r 0).val = (r ⟨0, by decide⟩).val :=
  dot_S1024x256_S256x1024_S1024x1024_1_0_0_1_n_n.rhsIdx_val_of_single rfl i r
theorem rhs_1 (i : S1024x1024.Idx) (r : dot_S1024x256_S256x1024_S1024x1024_1_0_0_1_n_n.contr.Idx) : (dot_S1024x256_S256x1024_S1024x1024_1_0_0_1_n_n.rhsIdx i r 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The matrix product of the first block with the transposed second, both rounded to bf16 on the way in (no change on
    the extended reals), into a zero accumulator: entry `(p, q)` is the inner product of rows `p` and `q`. -/
theorem gram_apply (x0 x1 : FVec Ideal S1024x256 .f32) (p q : Fin 1024) :
    matmul dot_S1024x256_S256x1024_S1024x1024_1_0_0_1_n_n none (truncf .bf16 x0 Facts₀.bitsLt_bf16_f32)
        (transpose S256x1024 [1, 0] (truncf .bf16 x1 Facts₀.bitsLt_bf16_f32) Facts₀.transposes_S1024x256_p1_0_S256x1024)
        (constant S1024x1024 .f32 0x00000000#32) (ix2 p q)
      = ∑ k : Fin 256, x0 (ix2 p k) * x1 (ix2 q k) := by
  simp only [matmul]
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 p q) ((ValueIdx.contrEquiv1 dot_S1024x256_S256x1024_S1024x1024_1_0_0_1_n_n 256 rfl rfl).symm k) = ix2 p k := funext fun a => Fin.ext (by
    match a with
    | ⟨0, _⟩ => exact lhs_0 _ _
    | ⟨1, _⟩ => exact (lhs_1 _ _).trans hk)
  have er : dot_S1024x256_S256x1024_S1024x1024_1_0_0_1_n_n.rhsIdx (ix2 p q) ((ValueIdx.contrEquiv1 dot_S1024x256_S256x1024_S1024x1024_1_0_0_1_n_n 256 rfl rfl).symm k) = ix2 k q := funext fun a => Fin.ext (by
    match a with
    | ⟨0, _⟩ => exact (rhs_0 _ _).trans hk
    | ⟨1, _⟩ => exact rhs_1 _ _)
  rw [el, er, transpose_ix2_apply]
  rfl

theorem sqrt_apply {s : Shape} {φ : FTy} (a : FVec Ideal s φ) (i : s.Idx) : sqrt a i = Ideal.sqrt (a i) := rfl

/-- Entry `(p, q)` of the distance tile. -/
theorem pay3_apply (x0 x1 : FVec Ideal S1024x256 .f32) (p q : Fin 1024) :
    k0_pay3 (F := Ideal) x0 x1 (ix2 p q)
      = Ideal.sqrt (max ((∑ k : Fin 256, x0 (ix2 p k) * x0 (ix2 p k)) + (∑ k : Fin 256, x1 (ix2 q k) * x1 (ix2 q k))
          - Ideal.ofBits .f32 0x40000000#32 * (∑ k : Fin 256, x0 (ix2 p k) * x1 (ix2 q k))
          + Ideal.ofBits .f32 0x360637BD#32 * ((∑ k : Fin 256, x0 (ix2 p k)) - ∑ k : Fin 256, x1 (ix2 q k))
          + Ideal.ofBits .f32 0x2F8CBCCC#32) (Ideal.ofBits .f32 0x00000000#32)) := by
  unfold k0_pay3
  have hA := colsum_apply (mulf x0 x0) p q
  have hB := rowsum_apply (mulf x1 x1) p q
  have hG := gram_apply x0 x1 p q
  have hR0 := colsum_apply x0 p q
  have hR1 := rowsum_apply x1 p q
  simp only [mulf_apply] at hA hB
  simp only [sqrt_apply, maximumf_apply, addf_apply, subf_apply, mulf_apply, broadcast_apply]
  rw [hA, hB, hG, hR0, hR1]
  rfl

/-! ## The tile's masked sum and the accumulator -/

/-- Entry `(p, q)` of the masked tile: the distance where the two labels agree, zero elsewhere. -/
def tileEntry (x0 x1 : FVec Ideal S1024x256 .f32) (x2 : Vec Ideal S1024x1 .i32) (x3 : Vec Ideal S1x1024 .i32) (p q : Fin 1024) : EReal :=
  Scalar.select (IntOp.cmpi .eq (x2 (ix2 p (0 : Fin 1))) (x3 (ix2 (0 : Fin 1) q))) (k0_pay3 (F := Ideal) x0 x1 (ix2 p q)) (Ideal.ofBits .f32 0x00000000#32)

/-- The masked tile at an index. -/
theorem masked_apply (v37 : FVec Ideal S1024x1024 .f32) (x2 : Vec Ideal S1024x1 .i32) (x3 : Vec Ideal S1x1024 .i32) (p q : Fin 1024) :
    select (cmpi .eq (broadcastTo S1024x1024 (shapeCast S1024x1 x2 Facts₀.shapeCasts_S1024x1_S1024x1) Facts₀.broadcasts_S1024x1_S1024x1024)
        (broadcastTo S1024x1024 (shapeCast S1x1024 x3 Facts₀.shapeCasts_S1x1024_S1x1024) Facts₀.broadcasts_S1x1024_S1024x1024))
      v37 (broadcast S1024x1024 (Scalar.ofBits (F := Ideal) .f32 0x00000000#32)) (ix2 p q)
      = Scalar.select (IntOp.cmpi .eq (x2 (ix2 p (0 : Fin 1))) (x3 (ix2 (0 : Fin 1) q))) (v37 (ix2 p q)) (Ideal.ofBits .f32 0x00000000#32) := by
  have h2 : broadcastTo S1024x1024 (shapeCast S1024x1 x2 Facts₀.shapeCasts_S1024x1_S1024x1) Facts₀.broadcasts_S1024x1_S1024x1024 (ix2 p q)
      = x2 (ix2 p (0 : Fin 1)) := by
    rw [shapeCast_self]
    exact broadcastTo_apply _ Facts₀.broadcasts_S1024x1_S1024x1024 (ix2 p q) (ix2 p (0 : Fin 1)) (fun ax => by
      match ax with
      | ⟨0, _⟩ => rfl
      | ⟨1, _⟩ => rfl)
  have h3 : broadcastTo S1024x1024 (shapeCast S1x1024 x3 Facts₀.shapeCasts_S1x1024_S1x1024) Facts₀.broadcasts_S1x1024_S1024x1024 (ix2 p q)
      = x3 (ix2 (0 : Fin 1) q) := by
    rw [shapeCast_self]
    exact broadcastTo_1b_ab_apply _ Facts₀.broadcasts_S1x1024_S1024x1024 p q
  rw [select_apply]
  show Scalar.select (IntOp.cmpi .eq _ _) _ _ = _
  rw [h2, h3]
  rfl

/-- The sum of a whole 1024 × 1024 tile, as the body takes it (through a leading unit axis, reduced to one element
    and extracted): the double sum of its entries. -/
theorem total_apply (v46 : FVec Ideal S1024x1024 .f32) :
    extractAt ![0, 0, 0] (shapeCast S1x1x1 (multiReduction .add [1, 2] S1 (shapeCast S1x1024x1024 v46 Facts₀.shapeCasts_S1024x1024_S1x1024x1024)
        0x00000000#32 Facts₀.reduces_S1x1024x1024_S1 (.inl rfl) rfl) Facts₀.shapeCasts_S1_S1x1x1) Facts₀.inpos_S1x1x1_p0_0_0
      = ∑ p : Fin 1024, ∑ q : Fin 1024, v46 (ix2 p q) := by
  unfold extractAt
  refine (shapeCast_apply _ Facts₀.shapeCasts_S1_S1x1x1 _ (ix1 (0 : Fin 1)) ?_).trans ?_
  · rw [Shape.rowMajor_val_one, Shape.rowMajor_val_three]
    rfl
  refine (Ideal.multiReduction_add_total _ 0x00000000#32 Facts₀.reduces_S1x1024x1024_S1 (fun b => by match b with | ⟨0, _⟩ => rfl) (.inl rfl) rfl _).trans ?_
  refine (Equiv.sum_comp (Shape.reshapeEquiv Facts₀.shapeCasts_S1024x1024_S1x1024x1024) v46).trans ?_
  exact sum_idx2 v46

/-- Adding a scalar, spread over the one-element block, to the accumulator. -/
theorem acc_add (s : FVec Ideal S1x1 .f32) (z : EReal) (y : S1x1.Idx) :
    shapeCast S1x1 (addf s (broadcast S1x1 z)) Facts₀.shapeCasts_S1x1_S1x1 y = s y + z := by
  rw [shapeCast_self]; rfl

/-- One step of the accumulator: what it held plus the sum of the masked tile. -/
theorem accStep_apply (x0 x1 : FVec Ideal S1024x256 .f32) (x2 : Vec Ideal S1024x1 .i32) (x3 : Vec Ideal S1x1024 .i32)
    (s : FVec Ideal S1x1 .f32) (y : S1x1.Idx) :
    k0_pay1 (F := Ideal) (k0_pay3 (F := Ideal) x0 x1) x2 x3 s y
      = s y + ∑ p : Fin 1024, ∑ q : Fin 1024, tileEntry x0 x1 x2 x3 p q := by
  unfold k0_pay1
  refine (acc_add s _ y).trans (congrArg (s y + ·) ?_)
  refine (total_apply _).trans ?_
  exact Finset.sum_congr rfl fun p _ => Finset.sum_congr rfl fun q _ => masked_apply _ x2 x3 p q

end Cert.KernelIdeal.Tile

end
-- ==== Proof.KernelValue.lean ====
import proofs.«144776_j80547816669829_1_alg».proof.Proof.HandKernelIdeal.Run
import proofs.«144776_j80547816669829_1_alg».proof.Proof.KernelTile

/-! # The kernel's result is the pairwise loss

Point `t` of the 8 × 8 grid reads rows `1024·(t / 8) …` and rows `1024·(t % 8) …` of the embeddings and the labels of
the same rows; its masked tile is the tile `(t / 8, t % 8)` of the matrix of masked distances. The accumulator after
the last point is the sum of the 64 tiles, which is the sum over all pairs; the last point writes it back, and the host
divides it by 8192 · 8191. -/

set_option maxRecDepth 16384

noncomputable section

namespace Cert.KernelIdeal.Hand

open Cert.KernelIdeal Cert.KernelIdeal.Gen Cert.KernelIdeal.Tile Cert.PairLoss
open Idealize.ShloMosaic Idealize.ShloMosaic.TcCoe Idealize.ShloMosaic.ValueIdx
open Idealize.SL.Sem
open Idealize.ShloMosaic.Pipeline (Dat Cfg Window)
open Finset

variable (m : (ℓ : Loc nD τ sig) → Buf (Elt Ideal) ℓ)

/-- The embeddings and the labels at launch, by natural-number coordinates. -/
abbrev embN (c : Dev nD) : ℕ → ℕ → EReal := rowsOf (m ((c : Thread nD τ).loc main_arg0))
abbrev labN (c : Dev nD) : ℕ → BitVec 32 := labelsOf (m ((c : Thread nD τ).loc main_arg1))

/-- The sum of tile `t` of the matrix of masked distances. -/
def tileSum (E : ℕ → ℕ → EReal) (lab : ℕ → BitVec 32) (t : ℕ) : EReal :=
  ∑ p ∈ range 1024, ∑ q ∈ range 1024, pairAt E lab (t / 8 * 1024 + p) (t % 8 * 1024 + q)

/-- The printed index maps over the grid: the first embeddings window and the label column follow the grid's first
    coordinate, the second embeddings window and the label row the second; the result block stays put. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = 0 ∧ win0_4.index t (1 : Fin 2) = 0 :=
  (by decide +kernel : ∀ t : Fin grid0.N, _)

/-! ## The arrays as the region finds them -/

theorem V_arg0 (c : Dev nD) : V m c main_arg0 = m ((c : Thread nD τ).loc main_arg0) := V1_of m c main_arg0 (by decide)

theorem V_v0 (c : Dev nD) :
    (V m c main_v0 : S8192x1.Idx → BitVec 32) = shapeCast S8192x1 (m ((c : Thread nD τ).loc main_arg1)) Facts₀.shapeCasts_S8192_S8192x1 := by
  dsimp only [V, V1, hostOps0]; after_results; rfl

theorem V_v1 (c : Dev nD) :
    (V m c main_v1 : S1x8192.Idx → BitVec 32) = shapeCast S1x8192 (m ((c : Thread nD τ).loc main_arg1)) Facts₀.shapeCasts_S8192_S1x8192 := by
  dsimp only [V, V1, hostOps0]; after_results; rfl

/-! ## The blocks a point reads -/

theorem blk0 (c : Dev nD) (t : Fin cfg0.N) (p : Fin 1024) (k : Fin 256) :
    iblk m c 0 t (ix2 p k) = embN m c (t.val / 8 * 1024 + p.val) k.val := by
  have hN : t.val < 64 := lt_of_lt_of_eq t.isLt (show cfg0.N = 64 from N_0)
  obtain ⟨e0, e1, -⟩ := idx_facts t
  rw [embN, rowsOf_lt _ _ _ (by omega) k.isLt]
  show V m c main_arg0 (((cfg0.win 0).blk t).view.emb (ix2 p k)) = _
  rw [V_arg0]
  refine congrArg (m _) (funext fun a => Fin.ext ?_)
  match a with
  | ⟨0, _⟩ => show win0_0.index t (0 : Fin 2) * 1024 + 1 * p.val = t.val / 8 * 1024 + p.val; omega
  | ⟨1, _⟩ => show win0_0.index t (1 : Fin 2) * 256 + 1 * k.val = k.val; omega

theorem blk1 (c : Dev nD) (t : Fin cfg0.N) (q : Fin 1024) (k : Fin 256) :
    iblk m c 1 t (ix2 q k) = embN m c (t.val % 8 * 1024 + q.val) k.val := by
  have hN : t.val < 64 := lt_of_lt_of_eq t.isLt (show cfg0.N = 64 from N_0)
  obtain ⟨-, -, e0, e1, -⟩ := idx_facts t
  rw [embN, rowsOf_lt _ _ _ (by omega) k.isLt]
  show V m c main_arg0 (((cfg0.win 1).blk t).view.emb (ix2 q k)) = _
  rw [V_arg0]
  refine congrArg (m _) (funext fun a => Fin.ext ?_)
  match a with
  | ⟨0, _⟩ => show win0_1.index t (0 : Fin 2) * 1024 + 1 * q.val = t.val % 8 * 1024 + q.val; omega
  | ⟨1, _⟩ => show win0_1.index t (1 : Fin 2) * 256 + 1 * k.val = k.val; omega

theorem blk2 (c : Dev nD) (t : Fin cfg0.N) (p : Fin 1024) :
    iblk m c 2 t (ix2 p (0 : Fin 1)) = labN m c (t.val / 8 * 1024 + p.val) := by
  have hN : t.val < 64 := lt_of_lt_of_eq t.isLt (show cfg0.N = 64 from N_0)
  obtain ⟨-, -, -, -, e0, e1, -⟩ := idx_facts t
  rw [labN, labelsOf_lt _ _ (by omega)]
  show V m c main_v0 (((cfg0.win 2).blk t).view.emb (ix2 p (0 : Fin 1))) = _
  rw [V_v0]
  refine shapeCast_apply _ _ _ _ ?_
  show (S8192.rowMajor (ix1 (⟨t.val / 8 * 1024 + p.val, _⟩ : Fin 8192))).val = (S8192x1.rowMajor (((cfg0.win 2).blk t).view.emb (ix2 p (0 : Fin 1)))).val
  rw [Shape.rowMajor_val_one, Shape.rowMajor_val_two]
  show t.val / 8 * 1024 + p.val = (win0_2.index t (0 : Fin 2) * 1024 + 1 * p.val) * 1 + (win0_2.index t (1 : Fin 2) * 1 + 1 * 0)
  omega

theorem blk3 (c : Dev nD) (t : Fin cfg0.N) (q : Fin 1024) :
    iblk m c 3 t (ix2 (0 : Fin 1) q) = labN m c (t.val % 8 * 1024 + q.val) := by
  have hN : t.val < 64 := lt_of_lt_of_eq t.isLt (show cfg0.N = 64 from N_0)
  obtain ⟨-, -, -, -, -, -, e0, e1, -⟩ := idx_facts t
  rw [labN, labelsOf_lt _ _ (by omega)]
  show V m c main_v1 (((cfg0.win 3).blk t).view.emb (ix2 (0 : Fin 1) q)) = _
  rw [V_v1]
  refine shapeCast_apply _ _ _ _ ?_
  show (S8192.rowMajor (ix1 (⟨t.val % 8 * 1024 + q.val, _⟩ : Fin 8192))).val = (S1x8192.rowMajor (((cfg0.win 3).blk t).view.emb (ix2 (0 : Fin 1) q))).val
  rw [Shape.rowMajor_val_one, Shape.rowMajor_val_two]
  show t.val % 8 * 1024 + q.val = (win0_3.index t (0 : Fin 2) * 1 + 1 * 0) * 8192 + (win0_3.index t (1 : Fin 2) * 1024 + 1 * q.val)
  omega

/-! ## A point's tile and the accumulator -/

theorem sum_features (g : ℕ → EReal) : ∑ k : Fin 256, g k.val = ∑ k ∈ range 256, g k := (Finset.sum_range g).symm

/-- Entry `(p, q)` of point `t`'s masked tile is the masked distance of the two rows it stands for. -/
theorem entry_eq (c : Dev nD) (t : Fin cfg0.N) (p q : Fin 1024) :
    tileEntry (iblk m c 0 t) (iblk m c 1 t) (iblk m c 2 t) (iblk m c 3 t) p q
      = pairAt (embN m c) (labN m c) (t.val / 8 * 1024 + p.val) (t.val % 8 * 1024 + q.val) := by
  unfold tileEntry
  rw [pay3_apply]
  simp only [blk0, blk1, blk2, blk3]
  unfold pairAt pairTerm
  simp only [← sum_features]

/-- One step of the accumulator at point `t`: what it held plus tile `t`'s sum. -/
theorem step_eq (c : Dev nD) (t : Fin cfg0.N) (s : FVec Ideal S1x1 .f32) (y : S1x1.Idx) :
    accStep (iblk m c 0 t) (iblk m c 1 t) (iblk m c 2 t) (iblk m c 3 t) s y
      = s y + tileSum (embN m c) (labN m c) t.val := by
  unfold accStep
  refine (accStep_apply (iblk m c 0 t) (iblk m c 1 t) (iblk m c 2 t) (iblk m c 3 t) s y).trans (congrArg (s y + ·) ?_)
  unfold tileSum
  rw [Finset.sum_range]
  refine Finset.sum_congr rfl fun p _ => ?_
  rw [Finset.sum_range]
  exact Finset.sum_congr rfl fun q _ => entry_eq m c t p q

/-- The zeroed accumulator. -/
theorem pay2_apply (y : S1x1.Idx) : k0_pay2 (F := Ideal) y = 0 := by
  unfold k0_pay2
  rw [shapeCast_self]
  exact Ideal.ofBits_zero_f32

/-- The accumulator after point `n`: the sum of the tiles of the points up to `n`. -/
theorem accAt_eq (c : Dev nD) : ∀ (n : ℕ) (h : n < cfg0.N) (y : S1x1.Idx),
    accAt m c n h y = ∑ t ∈ range (n + 1), tileSum (embN m c) (labN m c) t
  | 0, h, y => by
    rw [show accAt m c 0 h = accStep (iblk m c 0 ⟨0, h⟩) (iblk m c 1 ⟨0, h⟩) (iblk m c 2 ⟨0, h⟩) (iblk m c 3 ⟨0, h⟩) (k0_pay2 (F := Ideal)) from rfl,
      step_eq m c ⟨0, h⟩, pay2_apply, zero_add, Finset.sum_range_one]
  | n + 1, h, y => by
    rw [show accAt m c (n + 1) h = accStep (iblk m c 0 ⟨n + 1, h⟩) (iblk m c 1 ⟨n + 1, h⟩) (iblk m c 2 ⟨n + 1, h⟩) (iblk m c 3 ⟨n + 1, h⟩)
        (accAt m c n (Nat.lt_of_succ_lt h)) from rfl,
      step_eq m c ⟨n + 1, h⟩, accAt_eq c n (Nat.lt_of_succ_lt h) y, Finset.sum_range_succ _ (n + 1)]

/-! ## The result -/

/-- An index is in the result window's block at every point: the block is the whole one-element array. -/
theorem mem_blk4 (t : Fin cfg0.N) (i : S1x1.Idx) :
    i ∈ ((cfg0.win 4).blk t).view.set ↔ ∀ a : Fin 2, win0_4.index t a * S1x1.size a ≤ (i a).val ∧ (i a).val < win0_4.index t a * S1x1.size a + S1x1.size a := by
  show i ∈ ((View.whole main_v2).slice (win0_4.rect t)).set ↔ _
  rw [View.set_slice_whole, Rect.mem_set_unit]
  exact Iff.rfl

/-- What the region leaves in its result array: the accumulator after the last point. -/
theorem outF_eq (c : Dev nD) (i : S1x1.Idx) : outF m c i = ∑ t ∈ range 64, tileSum (embN m c) (labN m c) t := by
  have hN : cfg0.N = 64 := N_0
  have h63 : 63 < cfg0.N := by omega
  have hfin : (dats m 0 c).arrAt 4 cfg0.N = (accAt m c 63 h63 : S1x1.Idx → EReal) := by
    refine (dats m 0 c).arrAt_eq_of_cover 4 _ (fun t hf => ?_) (fun i => ⟨⟨63, h63⟩, (flush0_4 _).mpr rfl, ?_⟩)
    · have ht : t.val = 63 := by have := (flush0_4 t).mp hf; have := t.isLt; omega
      obtain ⟨-, -, -, -, -, -, -, -, e0, e1⟩ := idx_facts t
      show (cfg0.win 4).cut (grid0.coords t) ((dats m 0 c).after 4 t) = _
      rw [after4]
      funext y
      show accAt m c t.val t.isLt y = accAt m c 63 h63 (((cfg0.win 4).blk t).view.emb y)
      rw [accAt_eq, accAt_eq, ht]
    · rw [mem_blk4]
      obtain ⟨-, -, -, -, -, -, -, -, e0, e1⟩ := idx_facts ⟨63, h63⟩
      intro a
      match a with
      | ⟨0, _⟩ => show win0_4.index ⟨63, h63⟩ (0 : Fin 2) * 1 ≤ (i 0).val ∧ (i 0).val < win0_4.index ⟨63, h63⟩ (0 : Fin 2) * 1 + 1; have hi : (i 0).val < 1 := (i 0).isLt; omega
      | ⟨1, _⟩ => show win0_4.index ⟨63, h63⟩ (1 : Fin 2) * 1 ≤ (i 1).val ∧ (i 1).val < win0_4.index ⟨63, h63⟩ (1 : Fin 2) * 1 + 1; have hi : (i 1).val < 1 := (i 1).isLt; omega
  show (dats m 0 c).arrAt 4 cfg0.N i = _
  rw [hfin, accAt_eq]

/-- What the three host operations make of it: the quotient by the constant. -/
theorem V3_v4 (c : Dev nD) :
    (V3 m c main_v4 : S_.Idx → EReal)
      = Host.divf (F := Ideal) (shapeCast S_ (outF m c) Facts₀.shapeCasts_S1x1_S_) (constant (F := Ideal) S_ .f32 0x4C7FF800#32) := by
  dsimp only [V3, V2, hostOps1]; after_results
  simp only [Function.update_self]
  rfl

/-- THE KERNEL'S RESULT is the loss of its arguments. -/
theorem result_eq (c : Dev nD) (i : S_.Idx) :
    (V3 m c main_v4 : S_.Idx → EReal) i = loss (embN m c) (labN m c) := by
  rw [V3_v4]
  show Ideal.div (outF m c _) (Ideal.ofBits .f32 0x4C7FF800#32) = _
  rw [outF_eq]
  unfold loss
  rw [← total_tiles]
  rfl

end Cert.KernelIdeal.Hand

end
-- ==== Proof.RefSide.lean ====
import proofs.«144776_j80547816669829_1_alg».proof.Proof.Gen.ReferenceIdeal.Read
import proofs.«144776_j80547816669829_1_alg».proof.Proof.Spec

/-! # The reference is the pairwise loss

The reference forms the whole 8192 × 8192 matrix of masked distances and sums it. Read one operation at a time, its
entry `(i, j)` is the pair's masked distance, and its result the loss. -/

noncomputable section

namespace Cert.ReferenceIdeal.RefValue

open Cert.ReferenceIdeal Cert.ReferenceIdeal.Read Cert.PairLoss
open Idealize.ShloMosaic Idealize.ShloMosaic.ValueIdx
open Finset

variable (x0 : (⟨S8192x256, .f32⟩ : BufTy).Contents (Elt Ideal)) (x1 : (⟨S8192, .i32⟩ : BufTy).Contents (Elt Ideal))

/-- A row's sum over its 256 features, by natural-number coordinates. -/
theorem sum_features (g : ℕ → EReal) : ∑ k : Fin 256, g k.val = ∑ k ∈ range 256, g k := (Finset.sum_range g).symm

/-- Entry `(i, j)` of the masked distance matrix is the pair's masked distance. -/
theorem entry_eq (i j : Fin 8192) :
    val_main_v31 (F := Ideal) x0 x1 (ix2 i j) = pairAt (rowsOf x0) (labelsOf x1) i.val j.val := by
  have e1 : ∀ k : Fin 256, idx_main_v1 (idx_main_v5 (idx_main_v7 (ix2 i j))) k = ix2 i k := fun k =>
    funext fun a => Fin.ext (by match a with | ⟨0, _⟩ => rfl | ⟨1, _⟩ => rfl)
  have e2 : ∀ k : Fin 256, idx_main_v1 (idx_main_v6 (idx_main_v8 (ix2 i j))) k = ix2 j k := fun k =>
    funext fun a => Fin.ext (by match a with | ⟨0, _⟩ => rfl | ⟨1, _⟩ => rfl)
  have e3 : ∀ k : Fin 256, idx_main_v2 (idx_main_v13 (idx_main_v15 (ix2 i j))) k = ix2 i k := fun k =>
    funext fun a => Fin.ext (by match a with | ⟨0, _⟩ => rfl | ⟨1, _⟩ => rfl)
  have e4 : ∀ k : Fin 256, idx_main_v2 (idx_main_v14 (idx_main_v16 (ix2 i j))) k = ix2 j k := fun k =>
    funext fun a => Fin.ext (by match a with | ⟨0, _⟩ => rfl | ⟨1, _⟩ => rfl)
  have e5 : ∀ k : Fin 256, lidx_main_v4 (ix2 i j) k = ix2 i k := fun k =>
    funext fun a => Fin.ext (by match a with | ⟨0, _⟩ => rfl | ⟨1, _⟩ => rfl)
  have e6 : ∀ k : Fin 256, idx_main_v3 (ridx_main_v4 (ix2 i j) k) = ix2 j k := fun k =>
    funext fun a => Fin.ext (by match a with | ⟨0, _⟩ => rfl | ⟨1, _⟩ => rfl)
  have e7 : idx_main_v26 (idx_main_v28 (ix2 i j)) = ix1 i :=
    funext fun a => Fin.ext (by match a with | ⟨0, _⟩ => rfl)
  have e8 : idx_main_v27 (idx_main_v29 (ix2 i j)) = ix1 j :=
    funext fun a => Fin.ext (by match a with | ⟨0, _⟩ => rfl)
  rw [val_main_v31_apply, val_main_v30_apply, val_main_v28_apply, val_main_v26_apply, val_main_v29_apply, val_main_v27_apply,
    val_main_v25_apply, val_main_v24_apply, val_main_v23_apply, val_main_cst_4_apply, val_main_v22_apply, val_main_v21_apply,
    val_main_cst_3_apply, val_main_v20_apply, val_main_v19_apply, val_main_v18_apply, val_main_cst_2_apply, val_main_v17_apply,
    val_main_v15_apply, val_main_v13_apply, val_main_v2_apply, val_main_v16_apply, val_main_v14_apply, val_main_v2_apply,
    val_main_cst_0_apply, val_main_v12_apply, val_main_v9_apply, val_main_v7_apply, val_main_v5_apply, val_main_v1_apply,
    val_main_v8_apply, val_main_v6_apply, val_main_v1_apply, val_main_cst_apply, val_main_v11_apply, val_main_v10_apply,
    val_main_cst_1_apply, val_main_v4_apply, val_main_call0_v1_apply, val_main_call0_v0_apply, val_main_cst_5_apply]
  simp only [val_main_v0_apply, val_main_v3_apply, e1, e2, e3, e4, e5, e6, e7, e8, Ideal.ofBits_def, Ideal.addf_def, Ideal.subf_def,
    Ideal.mulf_def, Ideal.maximumf_def, Ideal.hostUnary_sqrt_def, Ideal.ofBits_zero_f32, zero_add]
  unfold pairAt pairTerm
  simp only [← sum_features, rowsOf_fin, labelsOf_fin, Ideal.ofBits_zero_f32]

/-- The reference's result is the loss of its arguments. -/
theorem result_eq (i : S_.Idx) :
    val_main_v33 (F := Ideal) x0 x1 i = loss (rowsOf x0) (labelsOf x1) := by
  rw [val_main_v33_apply, val_main_v32_apply, val_main_cst_6_apply, val_main_cst_7_apply, sum_idx2]
  simp only [entry_eq, Ideal.ofBits_def, Ideal.hostDivf_def, Ideal.ofBits_zero_f32, zero_add]
  unfold loss total
  rw [Finset.sum_range]
  refine congrArg (Ideal.div · _) (Finset.sum_congr rfl fun a _ => ?_)
  rw [Finset.sum_range]

end Cert.ReferenceIdeal.RefValue

end
-- ==== Proof.lean ====
/- The certificate of the tiled pairwise-distance loss.

   The kernel walks an 8 × 8 grid of 1024 × 1024 tiles of the matrix of masked pairwise distances of 8192 embedding rows,
   adds each tile's sum to a scalar accumulator kept between grid points, writes the accumulator back at the last point,
   and the host divides by 8192 · 8191. The reference forms the whole matrix at once, sums it and divides.

   * Both kernel programs (the printed one at the word level, its idealization on the extended reals) run to the end,
     fault nowhere and leave the arguments unchanged: the body at a grid point is run symbolically in its three cases
     (first point, a middle point, last point), the accumulator's contents are carried through the region's invariant,
     and @main is the two label reshapes, the region, and the three host operations on its result. The two embeddings
     windows read ONE array: its share is halved between them at the region's entry and joined at its exit.
   * The idealization rewrote nothing, so it preserves the printed program trivially.
   * On the extended reals both results are the same function of the arguments: every entry of a tile is the masked
     distance of the pair of rows it stands for (squared norms, inner product and row sums are the same finite sums on
     both sides; rounding the matrix product's operands to bf16 changes nothing there), and the sum of the 64 tile sums
     is the sum over all pairs — a finite sum in a commutative monoid, whatever its grouping. -/
import proofs.«144776_j80547816669829_1_alg».proof.Defs
import proofs.«144776_j80547816669829_1_alg».proof.Proof.Gen.Kernel
import proofs.«144776_j80547816669829_1_alg».proof.Proof.Gen.KernelIdeal
import proofs.«144776_j80547816669829_1_alg».proof.Proof.Gen.ReferenceIdeal
import proofs.«144776_j80547816669829_1_alg».proof.Proof.Gen.Pre_finite_inputs
import proofs.«144776_j80547816669829_1_alg».proof.Proof.HandKernel.Run
import proofs.«144776_j80547816669829_1_alg».proof.Proof.KernelValue
import proofs.«144776_j80547816669829_1_alg».proof.Proof.RefSide
import Idealize.ShloMosaic.Adequacy
import Idealize.ShloMosaic.Init

noncomputable section

namespace Cert.Proof

open Idealize.ShloMosaic Idealize.SL.Sem

/-- The printed kernel runs and keeps its arguments. -/
theorem frame_k : Cert.frame_Kernel := fun m ρ _ =>
  (θ_run Cert.Kernel.defs _ _).mono (fun _ h c => ⟨(h c).2.1, (h c).2.2⟩) (Cert.Kernel.Hand.run_main (F := Bits) m ρ)

/-- So does its idealization. -/
theorem frame_ki : Cert.frame_KernelIdeal := fun m ρ _ =>
  (θ_run Cert.KernelIdeal.defs _ _).mono (fun _ h c => ⟨(h c).2.1, (h c).2.2⟩) (Cert.KernelIdeal.Hand.run_main (F := Ideal) m ρ)

/-- The reference is a line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result and the reference's are the loss of the same arguments. -/
theorem algebraic : Cert.algebraic_KernelIdeal_ReferenceIdeal := by
  intro m ρ m' ρ' _ hagree
  refine ⟨fun c => (fun _ => Cert.PairLoss.loss (Cert.KernelIdeal.Hand.embN m c) (Cert.KernelIdeal.Hand.labN m c)), ?_, ?_⟩
  · refine (θ_run Cert.KernelIdeal.defs _ _).mono (fun _ h c => ⟨(h c).1.trans ?_, (h c).2⟩)
      (Cert.KernelIdeal.Hand.run_main (F := Ideal) m ρ)
    exact funext fun i => Cert.KernelIdeal.Hand.result_eq m c i
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v33_eq, (hagree c).1, (hagree c).2]
    exact funext fun i => Cert.ReferenceIdeal.RefValue.result_eq _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
